-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1200000 : Shape := ⟨2, ![2, 1200000]⟩
abbrev S1200000 : Shape := ⟨1, ![1200000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S256x64 .f32) (main_arg6 : FVec F S64 .f32) (main_arg7 : FVec F S64x64 .f32) (main_arg8 : FVec F S64x64 .f32) (main_arg9 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x256 .f32) (main_arg1 : IVec S2x1200000 32) (main_arg2 : FVec F S1200000 .f32) (main_arg3 : FVec F S256x256 .f32) (main_arg4 : FVec F S256 .f32) (main_arg5 : FVec F S256x64 .f32) (main_arg6 : FVec F S64 .f32) (main_arg7 : FVec F S64x64 .f32) (main_arg8 : FVec F S64x64 .f32) (main_arg9 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x256 : Shape := ⟨2, ![100000, 256]⟩
abbrev S2x1200000 : Shape := ⟨2, ![2, 1200000]⟩
abbrev S1200000 : Shape := ⟨1, ![1200000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S1x256 : Shape := ⟨2, ![1, 256]⟩
abbrev S1x64 : Shape := ⟨2, ![1, 64]⟩
abbrev S100000x64 : Shape := ⟨2, ![100000, 64]⟩
abbrev S5000x256 : Shape := ⟨2, ![5000, 256]⟩
abbrev S5000x64 : Shape := ⟨2, ![5000, 64]⟩
abbrev S1x1200000 : Shape := ⟨2, ![1, 1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩

abbrev nBuf : Space → Nat
  | .hbm => 72
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S1200000, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S1x256, .f32⟩
  | .hbm, ⟨11, _⟩ => ⟨S1x64, .f32⟩
  | .hbm, ⟨12, _⟩ => ⟨S100000x64, .f32⟩
  | .hbm, ⟨13, _⟩ => ⟨S100000x64, .bf16⟩
  | .hbm, ⟨14, _⟩ => ⟨S1x1200000, .i32⟩
  | .hbm, ⟨15, _⟩ => ⟨S1200000, .i32⟩
  | .hbm, ⟨16, _⟩ => ⟨S1x1200000, .i32⟩
  | .hbm, ⟨17, _⟩ => ⟨S1200000, .i32⟩
  | .hbm, ⟨18, _⟩ => ⟨S_, .f32⟩
  | .hbm, ⟨19, _⟩ => ⟨S100000, .f32⟩
  | .hbm, ⟨20, _⟩ => ⟨S1200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1200000, .i32⟩
  | .hbm, ⟨35, _⟩ => ⟨S1200000, .i1⟩
  | .hbm, ⟨36, _⟩ => ⟨S_, .i32⟩
  | .hbm, ⟨37, _⟩ => ⟨S1200000, .i32⟩
  | .hbm, ⟨38, _⟩ => ⟨S1200000, .i32⟩
  | .hbm, ⟨39, _⟩ => ⟨S1200000, .i32⟩
  | .hbm, ⟨40, _⟩ => ⟨S1200000x1, .i32⟩
  | .hbm, ⟨41, _⟩ => ⟨S1200000, .f32⟩
  | .hbm, ⟨42, _⟩ => ⟨S1200000, .f32⟩
  | .hbm, ⟨43, _⟩ => ⟨S_, .i32⟩
  | .hbm, ⟨44, _⟩ => ⟨S1200000, .i32⟩
  | .hbm, ⟨45, _⟩ => ⟨S1200000, .i1⟩
  | .hbm, ⟨46, _⟩ => ⟨S_, .i32⟩
  | .hbm, ⟨47, _⟩ => ⟨S1200000, .i32⟩
  | .hbm, ⟨48, _⟩ => ⟨S1200000, .i32⟩
  | .hbm, ⟨49, _⟩ => ⟨S1200000, .i32⟩
  | .hbm, ⟨50, _⟩ => ⟨S1200000x1, .i32⟩
  | .hbm, ⟨51, _⟩ => ⟨S1200000, .f32⟩
  | .hbm, ⟨52, _⟩ => ⟨S1200000, .f32⟩
  | .hbm, ⟨53, _⟩ => ⟨S_, .i32⟩
  | .hbm, ⟨54, _⟩ => ⟨S1200000, .i32⟩
  | .hbm, ⟨55, _⟩ => ⟨S1200000, .i1⟩
  | .hbm, ⟨56, _⟩ => ⟨S_, .i32⟩
  | .hbm, ⟨57, _⟩ => ⟨S1200000, .i32⟩
  | .hbm, ⟨58, _⟩ => ⟨S1200000, .i32⟩
  | .hbm, ⟨59, _⟩ => ⟨S1200000, .i32⟩
  | .hbm, ⟨60, _⟩ => ⟨S1200000x1, .i32⟩
  | .hbm, ⟨61, _⟩ => ⟨S1200000x64, .bf16⟩
  | .hbm, ⟨62, _⟩ => ⟨S1200000x1, .f32⟩
  | .hbm, ⟨63, _⟩ => ⟨S1200000x64, .f32⟩
  | .hbm, ⟨64, _⟩ => ⟨S1200000x64, .f32⟩
  | .hbm, ⟨65, _⟩ => ⟨S1200000x64, .f32⟩
  | .hbm, ⟨66, _⟩ => ⟨S_, .f32⟩
  | .hbm, ⟨67, _⟩ => ⟨S100000x64, .f32⟩
  | .hbm, ⟨68, _⟩ => ⟨S1200000x1, .i32⟩
  | .hbm, ⟨69, _⟩ => ⟨S100000x64, .f32⟩
  | .hbm, ⟨70, _⟩ => ⟨S1x64, .f32⟩
  | .hbm, ⟨71, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S64x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S256_S1x256 : S256.ShapeCasts S1x256
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  packedbf16_S5000x64_S5000x64_0_0 : (Rect.unit (s := S5000x64) ![0, 0] S5000x64.size inb_S5000x64_S5000x64_0_0).PackedRows (EltTy.packing .bf16)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S5000x64_S5000x64 : S5000x64.ShapeCasts S5000x64
  dot_S5000x256_S256x256_S5000x256_1_0_0_1_n_n_wf : DotDims.WF S5000x256 S256x256 S5000x256 [1] [0] [0] [1] [] []
  dot_S5000x256_S256x64_S5000x64_1_0_0_1_n_n_wf : DotDims.WF S5000x256 S256x64 S5000x64 [1] [0] [0] [1] [] []
  dot_S5000x64_S64x64_S5000x64_1_0_0_1_n_n_wf : DotDims.WF S5000x64 S64x64 S5000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .bf16 = 32 ∨ (Rect.block (s := S100000x64) S5000x64.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v2_1) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v2_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1200000 : Shape := ⟨2, ![2, 1200000]⟩
abbrev S1200000 : Shape := ⟨1, ![1200000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S64x64 : Shape := ⟨2, ![64, 64]⟩
abbrev S1x256 : Shape := ⟨2, ![1, 256]⟩
abbrev S100000x64 : Shape := ⟨2, ![100000, 64]⟩
abbrev S1x64 : Shape := ⟨2, ![1, 64]⟩
abbrev S_ : Shape := ⟨0, ![]⟩
abbrev S1x1200000 : Shape := ⟨2, ![1, 1200000]⟩
abbrev S100000 : Shape := ⟨1, ![100000]⟩
abbrev S1200000x1 : Shape := ⟨2, ![1200000, 1]⟩
abbrev S1200000x64 : Shape := ⟨2, ![1200000, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1200000, .i32⟩
  | .hbm, ⟨2, _⟩ => ⟨S1200000, .f32⟩
  | .hbm, ⟨3, _⟩ => ⟨S256x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S100000x256, .f32⟩
  | .hbm, ⟨11, _⟩ => ⟨S1x256, .f32⟩
  | .hbm, ⟨12, _⟩ => ⟨S100000x256, .f32⟩
  | .hbm, ⟨13, _⟩ => ⟨S100000x256, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S100000x64, .f32⟩
  | .hbm, ⟨20, _⟩ => ⟨S100000x64, .i1⟩
  | .hbm, ⟨21, _⟩ => ⟨S_, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x1200000, .i32⟩
  | .hbm, ⟨26, _⟩ => ⟨S1200000, .i32⟩
  | .hbm, ⟨27, _⟩ => ⟨S1x1200000, .i32⟩
  | .hbm, ⟨28, _⟩ => ⟨S1200000, .i32⟩
  | .hbm, ⟨29, _⟩ => ⟨S_, .f32⟩
  | .hbm, ⟨30, _⟩ => ⟨S100000, .f32⟩
  | .hbm, ⟨31, _⟩ => ⟨S1200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .i1⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .i32⟩
  | .hbm, ⟨45, _⟩ => ⟨S1200000, .i32⟩
  | .hbm, ⟨46, _⟩ => ⟨S1200000, .i1⟩
  | .hbm, ⟨47, _⟩ => ⟨S_, .i32⟩
  | .hbm, ⟨48, _⟩ => ⟨S1200000, .i32⟩
  | .hbm, ⟨49, _⟩ => ⟨S1200000, .i32⟩
  | .hbm, ⟨50, _⟩ => ⟨S1200000, .i32⟩
  | .hbm, ⟨51, _⟩ => ⟨S1200000x1, .i32⟩
  | .hbm, ⟨52, _⟩ => ⟨S1200000, .f32⟩
  | .hbm, ⟨53, _⟩ => ⟨S1200000, .f32⟩
  | .hbm, ⟨54, _⟩ => ⟨S_, .i32⟩
  | .hbm, ⟨55, _⟩ => ⟨S1200000, .i32⟩
  | .hbm, ⟨56, _⟩ => ⟨S1200000, .i1⟩
  | .hbm, ⟨57, _⟩ => ⟨S_, .i32⟩
  | .hbm, ⟨58, _⟩ => ⟨S1200000, .i32⟩
  | .hbm, ⟨59, _⟩ => ⟨S1200000, .i32⟩
  | .hbm, ⟨60, _⟩ => ⟨S1200000, .i32⟩
  | .hbm, ⟨61, _⟩ => ⟨S1200000x1, .i32⟩
  | .hbm, ⟨62, _⟩ => ⟨S1200000, .f32⟩
  | .hbm, ⟨63, _⟩ => ⟨S1200000, .f32⟩
  | .hbm, ⟨64, _⟩ => ⟨S100000x64, .f32⟩
  | .hbm, ⟨65, _⟩ => ⟨S1200000x1, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S1200000x64, .f32⟩
  | .hbm, ⟨76, _⟩ => ⟨S1200000x64, .f32⟩
  | .hbm, ⟨77, _⟩ => ⟨S_, .f32⟩
  | .hbm, ⟨78, _⟩ => ⟨S100000x64, .f32⟩
  | .hbm, ⟨79, _⟩ => ⟨S1200000x1, .i32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S1x64, .f32⟩
  | .hbm, ⟨84, _⟩ => ⟨S100000x64, .f32⟩
  | .hbm, ⟨85, _⟩ => ⟨S100000x64, .f32⟩
  | .hbm, ⟨86, _⟩ => ⟨S_, .f32⟩
  | .hbm, ⟨87, _⟩ => ⟨S100000x64, .f32⟩
  | .hbm, ⟨88, _⟩ => ⟨S100000x64, .f32⟩
  | .hbm, ⟨89, _⟩ => ⟨S_, .f32⟩
  | .hbm, ⟨90, _⟩ => ⟨S100000x64, .f32⟩
  | .hbm, ⟨91, _⟩ => ⟨S100000x64, .i1⟩
  | .hbm, ⟨92, _⟩ => ⟨S_, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_c_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_call2_cst : Ref sig .tc := ⟨.hbm, 86, rfl⟩
abbrev main_call2_v0 : Ref sig .tc := ⟨.hbm, 87, rfl⟩
abbrev main_v57 : Ref sig .tc := ⟨.hbm, 88, rfl⟩
abbrev main_call3_cst : Ref sig .tc := ⟨.hbm, 89, rfl⟩
abbrev main_call3_v0 : Ref sig .tc := ⟨.hbm, 90, rfl⟩
abbrev main_call3_v1 : Ref sig .tc := ⟨.hbm, 91, rfl⟩
abbrev main_call3_cst_0 : Ref sig .tc := ⟨.hbm, 92, rfl⟩
abbrev main_call3_v2 : Ref sig .tc := ⟨.hbm, 93, rfl⟩
abbrev main_call3_v3 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S100000 : S_.BroadcastsInDim S100000 (![] : Fin 0 → Fin S100000.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

class Facts : Prop extends Facts₀ where

variable [Facts]
-- ==== Proof.KernelRun.lean ====
/-
  The kernel program's run with its result named. Every weakly fair execution of @main from a memory with zero
  counters terminates without a fault, and in every final state the result array holds what the fold of the program's
  segments leaves there (the contents at the last boundary, after the second region's write-backs), while the ten
  argument arrays are as launched. The regions' proof data, the segments and the boundary contents are the generated
  frame's; only the postcondition says more than the frame claim does: it also reads the result buffer.
-/
import proofs.«120390_j36816459661690_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.Spec.lean ====
/-
  The function both programs compute, at the ideal values, written once over the reference's own operations.

  With x an N×256 node-feature matrix (N = 100000), E = 1200000 weighted edges (source row and destination row of an
  integer table, a weight per edge):
    hidden  = lrelu((x·W_pre + b_pre)·W_lin + b_lin)                          (N×64; lrelu(a) = a where a ≥ 0, else f32(0.01)·a)
    deg     = Σ over edges into a node of the edge weight;  dis = deg^(-1/2) where deg > 0, else 0
    norm_e  = dis[src e] · w_e · dis[dst e]
    agg     = Σ over edges e into a node of norm_e · (hidden·W_init)[src e]    (N×64)
    out     = tanh(hidden + lrelu(max(agg + hidden·W_root + b_arma, 0)))
  The biases enter as 1×n rows, so that a program that reshapes a bias to a row and one that broadcasts it to a row
  share these definitions. The gather and scatter-add of the graph step are carried as they are printed and never opened.
-/
import proofs.«120390_j36816459661690_2_alg».proof.Proof.Gen.ReferenceIdeal
import Idealize.ShloMosaic.PureOps.Ideal

noncomputable section

namespace Cert.Spec

open Idealize.ShloMosaic Cert.ReferenceIdeal Cert.ReferenceIdeal.Facts₀

/-- The leaky rectifier with slope f32(0.01), element by element. -/
def lrelu (a : FVec Ideal S100000x64 .f32) : FVec Ideal S100000x64 .f32 :=
  select (cmpf .oge a (broadcastInDim S100000x64 ![] bcast_S_S100000x64 (constant (F := Ideal) S_ .f32 0x00000000#32)))
    a (mulf (broadcastInDim S100000x64 ![] bcast_S_S100000x64 (constant (F := Ideal) S_ .f32 0x3C23D70A#32)) a)

/-- The two dense layers: lrelu((x·W_pre + b_pre)·W_lin + b_lin), the biases given as rows. -/
def hidden (x : FVec Ideal S100000x256 .f32) (wpre : FVec Ideal S256x256 .f32) (bpre : FVec Ideal S1x256 .f32)
    (wlin : FVec Ideal S256x64 .f32) (blin : FVec Ideal S1x64 .f32) : FVec Ideal S100000x64 .f32 :=
  lrelu (addf
    (Host.dotGeneral dot_S100000x256_S256x64_S100000x64_1_0_0_1_n_n none
      (addf (Host.dotGeneral dot_S100000x256_S256x256_S100000x256_1_0_0_1_n_n none x wpre)
        (broadcastInDim S100000x256 ![0, 1] bcast_S1x256_S100000x256_0_1 bpre))
      wlin)
    (broadcastInDim S100000x64 ![0, 1] bcast_S1x64_S100000x64_0_1 blin))

/-- The message weights: hidden·W_init. -/
def proj (h : FVec Ideal S100000x64 .f32) (winit : FVec Ideal S64x64 .f32) : FVec Ideal S100000x64 .f32 :=
  Host.dotGeneral dot_S100000x64_S64x64_S100000x64_1_0_0_1_n_n none h winit

/-- Row 0 of the edge table: each edge's source node. -/
def src (ei : IVec S2x1200000 32) : IVec S1200000 32 :=
  shapeCast S1200000 (extractStridedSlice S1x1200000 ![0, 0] ei slices_S2x1200000_S1x1200000_0_0) shapeCasts_S1x1200000_S1200000
/-- Row 1 of the edge table: each edge's destination node. -/
def dst (ei : IVec S2x1200000 32) : IVec S1200000 32 :=
  shapeCast S1200000 (extractStridedSlice S1x1200000 ![1, 0] ei slices_S2x1200000_S1x1200000_1_0) shapeCasts_S1x1200000_S1200000

/-- A node list as a column of gather indices, a negative entry counted from the end (+ N). -/
def wrapCol (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)
/-- A node list as a column of scatter indices. -/
def col (v : IVec S1200000 32) : IVec S1200000x1 32 :=
  broadcastInDim S1200000x1 ![0] bcast_S1200000_S1200000x1_0 v

/-- Weighted in-degree: the sum of the weights of the edges into each node. -/
def deg (ei : IVec S2x1200000 32) (ew : FVec Ideal S1200000 .f32) : FVec Ideal S100000 .f32 :=
  Host.scatterAdd scatter_S100000_S1200000x1_S1200000_n_0_0_1
    (broadcastInDim S100000 ![] bcast_S_S100000 (constant (F := Ideal) S_ .f32 0x00000000#32)) (col (dst ei)) ew

/-- deg^(-1/2) where deg > 0 (the argument floored at f32(1e-30)), else 0. -/
def dis (ei : IVec S2x1200000 32) (ew : FVec Ideal S1200000 .f32) : FVec Ideal S100000 .f32 :=
  select (cmpf .ogt (deg ei ew) (broadcastInDim S100000 ![] bcast_S_S100000 (constant (F := Ideal) S_ .f32 0x00000000#32)))
    (Host.rsqrt (maximumf (deg ei ew) (broadcastInDim S100000 ![] bcast_S_S100000 (constant (F := Ideal) S_ .f32 0x0DA24260#32))))
    (broadcastInDim S100000 ![] bcast_S_S100000 (id (constant (F := Ideal) S_ .f32 0x00000000#32)))

/-- The symmetric normalisation of an edge: dis[src]·w·dis[dst]. -/
def norm (ei : IVec S2x1200000 32) (ew : FVec Ideal S1200000 .f32) : FVec Ideal S1200000 .f32 :=
  mulf (mulf (Host.gather gather_S100000_S1200000x1_S1200000_n_0_n_n_0_1_1 (dis ei ew) (wrapCol (src ei))) ew)
    (Host.gather gather_S100000_S1200000x1_S1200000_n_0_n_n_0_1_1 (dis ei ew) (wrapCol (dst ei)))

/-- The graph step: each node sums, over its incoming edges, the edge's normalisation times the source's message row. -/
def agg (ei : IVec S2x1200000 32) (ew : FVec Ideal S1200000 .f32) (xw : FVec Ideal S100000x64 .f32) : FVec Ideal S100000x64 .f32 :=
  Host.scatterAdd scatter_S100000x64_S1200000x1_S1200000x64_1_0_0_1
    (broadcastInDim S100000x64 ![] bcast_S_S100000x64 (constant (F := Ideal) S_ .f32 0x00000000#32)) (col (dst ei))
    (mulf
      (broadcastInDim S1200000x64 ![0, 1] bcast_S1200000x1_S1200000x64_0_1
        (broadcastInDim S1200000x1 ![0] bcast_S1200000_S1200000x1_0 (norm ei ew)))
      (Host.gather gather_S100000x64_S1200000x1_S1200000x64_1_0_n_n_0_1_164 xw (wrapCol (src ei))))

/-- The last layer: tanh(h + lrelu(max(agg + h·W_root + b_arma, 0))), the bias given as a row. -/
def combine (h : FVec Ideal S100000x64 .f32) (ag : FVec Ideal S100000x64 .f32) (wroot : FVec Ideal S64x64 .f32)
    (barma : FVec Ideal S1x64 .f32) : FVec Ideal S100000x64 .f32 :=
  Host.tanh (addf h (lrelu (maximumf
    (addf (addf ag (Host.dotGeneral dot_S100000x64_S64x64_S100000x64_1_0_0_1_n_n none h wroot))
      (broadcastInDim S100000x64 ![0, 1] bcast_S1x64_S100000x64_0_1 barma))
    (broadcastInDim S100000x64 ![] bcast_S_S100000x64 (constant (F := Ideal) S_ .f32 0x00000000#32)))))

/-- The whole function, over rows for the three biases. -/
def outRows (x : FVec Ideal S100000x256 .f32) (ei : IVec S2x1200000 32) (ew : FVec Ideal S1200000 .f32)
    (wpre : FVec Ideal S256x256 .f32) (bpre : FVec Ideal S1x256 .f32) (wlin : FVec Ideal S256x64 .f32) (blin : FVec Ideal S1x64 .f32)
    (winit wroot : FVec Ideal S64x64 .f32) (barma : FVec Ideal S1x64 .f32) : FVec Ideal S100000x64 .f32 :=
  combine (hidden x wpre bpre wlin blin) (agg ei ew (proj (hidden x wpre bpre wlin blin) winit)) wroot barma

/-- The whole function of the ten arguments: each bias vector made a row first. -/
def out (x : FVec Ideal S100000x256 .f32) (ei : IVec S2x1200000 32) (ew : FVec Ideal S1200000 .f32)
    (wpre : FVec Ideal S256x256 .f32) (bpre : FVec Ideal S256 .f32) (wlin : FVec Ideal S256x64 .f32) (blin : FVec Ideal S64 .f32)
    (winit wroot : FVec Ideal S64x64 .f32) (barma : FVec Ideal S64 .f32) : FVec Ideal S100000x64 .f32 :=
  outRows x ei ew wpre (broadcastInDim S1x256 ![1] bcast_S256_S1x256_1 bpre) wlin (broadcastInDim S1x64 ![1] bcast_S64_S1x64_1 blin)
    winit wroot (broadcastInDim S1x64 ![1] bcast_S64_S1x64_1 barma)

end Cert.Spec

end
-- ==== Proof.Glue.lean ====
/-
  The host operations around the two kernels, read as values at the ideal instance.
  Before the first kernel two bias vectors are reshaped to rows. Between the kernels the graph step runs on the host:
  from the edge table, the edge weights and the first kernel's second output (the message rows), the same gather /
  scatter-add chain as the specification's `agg` — here the message rows pass through a change of float format,
  which is the identity on the extended reals — and a third bias is reshaped to a row; the first kernel's first
  output and the root weights are not touched. Each stretch of operations is read over an arbitrary valuation of
  the buffers it starts from (the source and destination rows of the edge table; whether the degree is positive, its
  floored inverse square root and the zero they are selected against; then the selected inverse square roots; then the
  normalised, gathered, scattered messages), and the three readings are composed.
-/
import proofs.«120390_j36816459661690_2_alg».proof.Proof.Gen.KernelIdeal.Launch
import proofs.«120390_j36816459661690_2_alg».proof.Proof.Spec
import Idealize.ShloMosaic.Lib.StableHlo.Run

set_option maxRecDepth 16384

noncomputable section

namespace Cert.KernelIdeal.Glue

open Idealize.ShloMosaic Idealize.ShloMosaic.StableHlo Cert.KernelIdeal Cert.KernelIdeal.Gen

variable (Wv : Valuation τ sig (Elt Ideal))

/-- A buffer that no operation of a stretch writes holds after the stretch what it held before. -/
local macro "not_written" : tactic => `(tactic| (
  refine after_of_forall_not_mem _ _ (List.forall_iff_forall_mem.mp ?_)
  simp only [hostOps0, hostOps1, hostOps1_1, hostOps1_2, List.Forall, nullary_writes, unary_writes, binary_writes,
    ternary_writes, quaternary_writes, reshape_writes, binaryIndexed_writes, Finset.mem_singleton]
  repeat' apply And.intro
  all_goals exact devRef_ne_of_ne (by decide)))

/-! ## Before the first kernel -/

/-- b_pre reshaped to a 1×256 row. -/
theorem pre_row : after (hostOps0 (F := Ideal)) Wv (Proc.devRef .tc main_v0)
    = fun i => shapeCast S1x256 (Wv (Proc.devRef .tc main_arg4)) shapeCasts_S256_S1x256 i := by
  dsimp only [hostOps0]
  after_results
  rfl
/-- b_lin reshaped to a 1×64 row. -/
theorem lin_row : after (hostOps0 (F := Ideal)) Wv (Proc.devRef .tc main_v1)
    = fun i => shapeCast S1x64 (Wv (Proc.devRef .tc main_arg6)) shapeCasts_S64_S1x64 i := by
  dsimp only [hostOps0]
  after_results
  rfl
theorem pre_x : after (hostOps0 (F := Ideal)) Wv (Proc.devRef .tc main_arg0) = Wv (Proc.devRef .tc main_arg0) := by not_written
theorem pre_wpre : after (hostOps0 (F := Ideal)) Wv (Proc.devRef .tc main_arg3) = Wv (Proc.devRef .tc main_arg3) := by not_written
theorem pre_wlin : after (hostOps0 (F := Ideal)) Wv (Proc.devRef .tc main_arg5) = Wv (Proc.devRef .tc main_arg5) := by not_written
theorem pre_winit : after (hostOps0 (F := Ideal)) Wv (Proc.devRef .tc main_arg7) = Wv (Proc.devRef .tc main_arg7) := by not_written
theorem pre_ei : after (hostOps0 (F := Ideal)) Wv (Proc.devRef .tc main_arg1) = Wv (Proc.devRef .tc main_arg1) := by not_written
theorem pre_ew : after (hostOps0 (F := Ideal)) Wv (Proc.devRef .tc main_arg2) = Wv (Proc.devRef .tc main_arg2) := by not_written
theorem pre_wroot : after (hostOps0 (F := Ideal)) Wv (Proc.devRef .tc main_arg8) = Wv (Proc.devRef .tc main_arg8) := by not_written
theorem pre_barma : after (hostOps0 (F := Ideal)) Wv (Proc.devRef .tc main_arg9) = Wv (Proc.devRef .tc main_arg9) := by not_written

/-! ## The degree stretch: sources, destinations, the degree's sign and floored inverse square root -/

attribute [local irreducible] Host.scatterAdd Host.gather Host.rsqrt

theorem s1_src : after (hostOps1 (F := Ideal)) Wv (Proc.devRef .tc main_v4) = Cert.Spec.src (Wv (Proc.devRef .tc main_arg1)) := by
  dsimp only [hostOps1]; after_results_simp; rfl
theorem s1_dst : after (hostOps1 (F := Ideal)) Wv (Proc.devRef .tc main_v6) = Cert.Spec.dst (Wv (Proc.devRef .tc main_arg1)) := by
  dsimp only [hostOps1]; after_results_simp; rfl
theorem s1_pos : after (hostOps1 (F := Ideal)) Wv (Proc.devRef .tc main_v11)
    = cmpf .ogt (Cert.Spec.deg (Wv (Proc.devRef .tc main_arg1)) (Wv (Proc.devRef .tc main_arg2)))
        (broadcastInDim S100000 ![] Cert.ReferenceIdeal.Facts₀.bcast_S_S100000 (constant (F := Ideal) S_ .f32 0x00000000#32)) := by
  dsimp only [hostOps1]; after_results_simp; rfl
theorem s1_rs : after (hostOps1 (F := Ideal)) Wv (Proc.devRef .tc main_v14)
    = Host.rsqrt (maximumf (Cert.Spec.deg (Wv (Proc.devRef .tc main_arg1)) (Wv (Proc.devRef .tc main_arg2)))
        (broadcastInDim S100000 ![] Cert.ReferenceIdeal.Facts₀.bcast_S_S100000 (constant (F := Ideal) S_ .f32 0x0DA24260#32))) := by
  dsimp only [hostOps1]; after_results_simp; rfl
theorem s1_zero : after (hostOps1 (F := Ideal)) Wv (Proc.devRef .tc main_cst_2) = constant (F := Ideal) S_ .f32 0x00000000#32 := by
  dsimp only [hostOps1]; after_results_simp
theorem s1_ew : after (hostOps1 (F := Ideal)) Wv (Proc.devRef .tc main_arg2) = Wv (Proc.devRef .tc main_arg2) := by not_written
theorem s1_msg : after (hostOps1 (F := Ideal)) Wv (Proc.devRef .tc main_v2_1) = Wv (Proc.devRef .tc main_v2_1) := by not_written
theorem s1_hid : after (hostOps1 (F := Ideal)) Wv (Proc.devRef .tc main_v2_0) = Wv (Proc.devRef .tc main_v2_0) := by not_written
theorem s1_wroot : after (hostOps1 (F := Ideal)) Wv (Proc.devRef .tc main_arg8) = Wv (Proc.devRef .tc main_arg8) := by not_written
theorem s1_barma : after (hostOps1 (F := Ideal)) Wv (Proc.devRef .tc main_arg9) = Wv (Proc.devRef .tc main_arg9) := by not_written

/-! ## The selection stretch: the inverse square root where the degree is positive, else zero -/

theorem s2_dis : after (hostOps1_1 (F := Ideal)) Wv (Proc.devRef .tc main_v15)
    = select (Wv (Proc.devRef .tc main_v11)) (Wv (Proc.devRef .tc main_v14))
        (broadcastInDim S100000 ![] Cert.ReferenceIdeal.Facts₀.bcast_S_S100000 (id (Wv (Proc.devRef .tc main_cst_2)))) := by
  dsimp only [hostOps1_1]; after_results_simp; rfl
theorem s2_src : after (hostOps1_1 (F := Ideal)) Wv (Proc.devRef .tc main_v4) = Wv (Proc.devRef .tc main_v4) := by not_written
theorem s2_dst : after (hostOps1_1 (F := Ideal)) Wv (Proc.devRef .tc main_v6) = Wv (Proc.devRef .tc main_v6) := by not_written
theorem s2_ew : after (hostOps1_1 (F := Ideal)) Wv (Proc.devRef .tc main_arg2) = Wv (Proc.devRef .tc main_arg2) := by not_written
theorem s2_msg : after (hostOps1_1 (F := Ideal)) Wv (Proc.devRef .tc main_v2_1) = Wv (Proc.devRef .tc main_v2_1) := by not_written
theorem s2_hid : after (hostOps1_1 (F := Ideal)) Wv (Proc.devRef .tc main_v2_0) = Wv (Proc.devRef .tc main_v2_0) := by not_written
theorem s2_wroot : after (hostOps1_1 (F := Ideal)) Wv (Proc.devRef .tc main_arg8) = Wv (Proc.devRef .tc main_arg8) := by not_written
theorem s2_barma : after (hostOps1_1 (F := Ideal)) Wv (Proc.devRef .tc main_arg9) = Wv (Proc.devRef .tc main_arg9) := by not_written

/-! ## The message stretch -/

/-- The graph step over given source and destination lists and given per-node inverse square roots. -/
def aggCore (s d : IVec S1200000 32) (di : FVec Ideal S100000 .f32) (ew : FVec Ideal S1200000 .f32)
    (xw : FVec Ideal S100000x64 .f32) : FVec Ideal S100000x64 .f32 :=
  Host.scatterAdd Cert.ReferenceIdeal.scatter_S100000x64_S1200000x1_S1200000x64_1_0_0_1
    (broadcastInDim S100000x64 ![] Cert.ReferenceIdeal.Facts₀.bcast_S_S100000x64 (constant (F := Ideal) S_ .f32 0x00000000#32)) (Cert.Spec.col d)
    (mulf
      (broadcastInDim S1200000x64 ![0, 1] Cert.ReferenceIdeal.Facts₀.bcast_S1200000x1_S1200000x64_0_1
        (broadcastInDim S1200000x1 ![0] Cert.ReferenceIdeal.Facts₀.bcast_S1200000_S1200000x1_0
          (mulf (mulf (Host.gather Cert.ReferenceIdeal.gather_S100000_S1200000x1_S1200000_n_0_n_n_0_1_1 di (Cert.Spec.wrapCol s)) ew)
            (Host.gather Cert.ReferenceIdeal.gather_S100000_S1200000x1_S1200000_n_0_n_n_0_1_1 di (Cert.Spec.wrapCol d)))))
      (Host.gather Cert.ReferenceIdeal.gather_S100000x64_S1200000x1_S1200000x64_1_0_n_n_0_1_164 xw (Cert.Spec.wrapCol s)))

/-- The specification's graph step is that, at the edge table's two rows and the specification's inverse square roots. -/
theorem agg_core (ei : IVec S2x1200000 32) (ew : FVec Ideal S1200000 .f32) (xw : FVec Ideal S100000x64 .f32) :
    Cert.Spec.agg ei ew xw = aggCore (Cert.Spec.src ei) (Cert.Spec.dst ei) (Cert.Spec.dis ei ew) ew xw := rfl

set_option maxHeartbeats 1000000 in
theorem s3_agg : after (hostOps1_2 (F := Ideal)) Wv (Proc.devRef .tc main_v45)
    = aggCore (Wv (Proc.devRef .tc main_v4)) (Wv (Proc.devRef .tc main_v6)) (Wv (Proc.devRef .tc main_v15))
        (Wv (Proc.devRef .tc main_arg2)) (Wv (Proc.devRef .tc main_v2_1)) := by
  dsimp only [hostOps1_2]
  after_results_simp
  rfl
/-- b_arma reshaped to a 1×64 row. -/
theorem s3_row : after (hostOps1_2 (F := Ideal)) Wv (Proc.devRef .tc main_v46)
    = fun i => shapeCast S1x64 (Wv (Proc.devRef .tc main_arg9)) shapeCasts_S64_S1x64 i := by
  dsimp only [hostOps1_2]; after_results_simp; rfl
theorem s3_hid : after (hostOps1_2 (F := Ideal)) Wv (Proc.devRef .tc main_v2_0) = Wv (Proc.devRef .tc main_v2_0) := by not_written
theorem s3_wroot : after (hostOps1_2 (F := Ideal)) Wv (Proc.devRef .tc main_arg8) = Wv (Proc.devRef .tc main_arg8) := by not_written

/-! ## The three stretches composed -/

/-- What the three stretches between the kernels leave, as one fold. -/
abbrev mid : Valuation τ sig (Elt Ideal) :=
  after (hostOps1_2 (F := Ideal)) (after (hostOps1_1 (F := Ideal)) (after (hostOps1 (F := Ideal)) Wv))

/-- Between the kernels the aggregated messages are the specification's graph step of the edge table, the edge weights and
    the message rows as the first kernel left them. -/
theorem mid_agg : mid Wv (Proc.devRef .tc main_v45)
    = Cert.Spec.agg (Wv (Proc.devRef .tc main_arg1)) (Wv (Proc.devRef .tc main_arg2)) (Wv (Proc.devRef .tc main_v2_1)) := by
  show after (hostOps1_2 (F := Ideal)) _ _ = _
  rw [s3_agg, s2_src, s2_dst, s2_dis, s2_ew, s2_msg, s1_src, s1_dst, s1_pos, s1_rs, s1_zero, s1_ew, s1_msg, agg_core]
  rfl
theorem mid_row : mid Wv (Proc.devRef .tc main_v46)
    = fun i => shapeCast S1x64 (Wv (Proc.devRef .tc main_arg9)) shapeCasts_S64_S1x64 i := by
  show after (hostOps1_2 (F := Ideal)) _ _ = _
  rw [s3_row, s2_barma, s1_barma]
theorem mid_hid : mid Wv (Proc.devRef .tc main_v2_0) = Wv (Proc.devRef .tc main_v2_0) := by
  show after (hostOps1_2 (F := Ideal)) _ _ = _
  rw [s3_hid, s2_hid, s1_hid]
theorem mid_wroot : mid Wv (Proc.devRef .tc main_arg8) = Wv (Proc.devRef .tc main_arg8) := by
  show after (hostOps1_2 (F := Ideal)) _ _ = _
  rw [s3_wroot, s2_wroot, s1_wroot]

end Cert.KernelIdeal.Glue

end
-- ==== Proof.Rows.lean ====
/-
  A length-n vector reshaped to a 1×n row and the same vector broadcast to a 1×n row (along axis 1) are one row:
  both hold the vector's entry k at (0, k). Stated for the two widths the programs use, 256 and 64.
-/
import Idealize.ShloMosaic.Lib.Pipeline.Value
import Idealize.ShloMosaic.Lib.ValueIdx

noncomputable section

namespace Cert.Rows

open Idealize.ShloMosaic Idealize.ShloMosaic.ValueIdx

theorem row256 {α : Type} (b : (⟨1, ![256]⟩ : Shape).Idx → α)
    (h : (⟨1, ![256]⟩ : Shape).ShapeCasts ⟨2, ![1, 256]⟩)
    (h' : (⟨1, ![256]⟩ : Shape).BroadcastsInDim ⟨2, ![1, 256]⟩ (![1] : Fin 1 → Fin 2)) :
    (fun i => shapeCast ⟨2, ![1, 256]⟩ b h i) = broadcastInDim ⟨2, ![1, 256]⟩ ![1] h' b := by
  funext i
  obtain ⟨p, q, rfl⟩ : ∃ (p : Fin 1) (q : Fin 256), i = ix2 p q := ⟨i 0, i 1, eq_ix2 i⟩
  rw [shapeCast_apply b h (ix2 p q) (ix1 q) (by
      rw [Shape.rowMajor_val_one, Shape.rowMajor_val_two]
      show q.val = p.val * 256 + q.val
      have := p.isLt; omega),
    broadcastInDim_apply ![1] h' b (ix2 p q) (ix1 q) (fun a => by
      match a with
      | ⟨0, _⟩ => rfl)]

theorem row64 {α : Type} (b : (⟨1, ![64]⟩ : Shape).Idx → α)
    (h : (⟨1, ![64]⟩ : Shape).ShapeCasts ⟨2, ![1, 64]⟩)
    (h' : (⟨1, ![64]⟩ : Shape).BroadcastsInDim ⟨2, ![1, 64]⟩ (![1] : Fin 1 → Fin 2)) :
    (fun i => shapeCast ⟨2, ![1, 64]⟩ b h i) = broadcastInDim ⟨2, ![1, 64]⟩ ![1] h' b := by
  funext i
  obtain ⟨p, q, rfl⟩ : ∃ (p : Fin 1) (q : Fin 64), i = ix2 p q := ⟨i 0, i 1, eq_ix2 i⟩
  rw [shapeCast_apply b h (ix2 p q) (ix1 q) (by
      rw [Shape.rowMajor_val_one, Shape.rowMajor_val_two]
      show q.val = p.val * 64 + q.val
      have := p.isLt; omega),
    broadcastInDim_apply ![1] h' b (ix2 p q) (ix1 q) (fun a => by
      match a with
      | ⟨0, _⟩ => rfl)]

end Cert.Rows

end
-- ==== Proof.KernelValue.lean ====
/-
  The kernel program's result as ONE function of its ten arguments.
  The result buffer ends at the last boundary's contents; that is the second kernel's output array, which is the
  specification's last layer of what the second kernel finds in its four input arrays; those are, read back through
  the host stretches and the first kernel's write-backs: the first kernel's first output (the hidden rows), the graph
  step of the edge table, the edge weights and the first kernel's second output (the message rows), the root weights
  as launched, and b_arma as a row. The first kernel finds its arguments as launched and two biases as rows. A bias
  reshaped to a row is the bias broadcast to a row, which is how the specification takes its biases.
  The three statements about the kernels' output arrays are taken as hypotheses here and supplied where they are proved.
-/
import proofs.«120390_j36816459661690_2_alg».proof.Proof.Gen.KernelIdeal.Frame
import proofs.«120390_j36816459661690_2_alg».proof.Proof.Glue
import proofs.«120390_j36816459661690_2_alg».proof.Proof.Rows

set_option maxRecDepth 16384

noncomputable section

namespace Cert.KernelIdeal.Whole

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- The value with the biases as reshaped rows. -/
theorem result_rows
    (hH : ∀ (V : (c : Dev nD) → (b : Ref sig .tc) → Buf (Elt Ideal) ((c : Thread nD τ).loc b)) (c : Dev nD),
      (dat0 (F := Ideal) V c).arrAt 6 cfg0.N
        = Cert.Spec.hidden (V c main_arg0) (V c main_arg3) (V c main_v0) (V c main_arg5) (V c main_v1))
    (hP : ∀ (V : (c : Dev nD) → (b : Ref sig .tc) → Buf (Elt Ideal) ((c : Thread nD τ).loc b)) (c : Dev nD),
      (dat0 (F := Ideal) V c).arrAt 7 cfg0.N
        = Cert.Spec.proj (Cert.Spec.hidden (V c main_arg0) (V c main_arg3) (V c main_v0) (V c main_arg5) (V c main_v1)) (V c main_arg7))
    (hO : ∀ (V : (c : Dev nD) → (b : Ref sig .tc) → Buf (Elt Ideal) ((c : Thread nD τ).loc b)) (c : Dev nD),
      (dat1 (F := Ideal) V c).arrAt 4 cfg1.N
        = Cert.Spec.combine (V c main_v2_0) (V c main_v45) (V c main_arg8) (V c main_v46)) :
    W6 m ρ c (Proc.devRef .tc main_v47)
      = Cert.Spec.outRows (m ((c : Thread nD τ).loc main_arg0)) (m ((c : Thread nD τ).loc main_arg1)) (m ((c : Thread nD τ).loc main_arg2))
          (m ((c : Thread nD τ).loc main_arg3)) (fun i => shapeCast S1x256 (m ((c : Thread nD τ).loc main_arg4)) shapeCasts_S256_S1x256 i)
          (m ((c : Thread nD τ).loc main_arg5)) (fun i => shapeCast S1x64 (m ((c : Thread nD τ).loc main_arg6)) shapeCasts_S64_S1x64 i)
          (m ((c : Thread nD τ).loc main_arg7)) (m ((c : Thread nD τ).loc main_arg8))
          (fun i => shapeCast S1x64 (m ((c : Thread nD τ).loc main_arg9)) shapeCasts_S64_S1x64 i) := by
  -- what the first kernel finds
  have x0 : V1 m ρ c main_arg0 = m ((c : Thread nD τ).loc main_arg0) := Glue.pre_x (W0 m ρ c)
  have x3 : V1 m ρ c main_arg3 = m ((c : Thread nD τ).loc main_arg3) := Glue.pre_wpre (W0 m ρ c)
  have x5 : V1 m ρ c main_arg5 = m ((c : Thread nD τ).loc main_arg5) := Glue.pre_wlin (W0 m ρ c)
  have x7 : V1 m ρ c main_arg7 = m ((c : Thread nD τ).loc main_arg7) := Glue.pre_winit (W0 m ρ c)
  have r0 : V1 m ρ c main_v0 = fun i => shapeCast S1x256 (m ((c : Thread nD τ).loc main_arg4)) shapeCasts_S256_S1x256 i :=
    Glue.pre_row (W0 m ρ c)
  have r1 : V1 m ρ c main_v1 = fun i => shapeCast S1x64 (m ((c : Thread nD τ).loc main_arg6)) shapeCasts_S64_S1x64 i :=
    Glue.lin_row (W0 m ρ c)
  -- what the second kernel finds
  have eOut : W6 m ρ c (Proc.devRef .tc main_v47) = (dat1 (V5 m ρ) c).arrAt 4 cfg1.N := W6_arr m ρ c 4
  have eHid : V5 m ρ c main_v2_0 = (dat0 (V1 m ρ) c).arrAt 6 cfg0.N := (Glue.mid_hid (W2 m ρ c)).trans (W2_arr m ρ c 6)
  have eMsg : W2 m ρ c (Proc.devRef .tc main_v2_1) = (dat0 (V1 m ρ) c).arrAt 7 cfg0.N := W2_arr m ρ c 7
  have eEi : W2 m ρ c (Proc.devRef .tc main_arg1) = m ((c : Thread nD τ).loc main_arg1) :=
    (W2_of_ne m ρ c main_arg1 (by decide)).trans (Glue.pre_ei (W0 m ρ c))
  have eEw : W2 m ρ c (Proc.devRef .tc main_arg2) = m ((c : Thread nD τ).loc main_arg2) :=
    (W2_of_ne m ρ c main_arg2 (by decide)).trans (Glue.pre_ew (W0 m ρ c))
  have eB : W2 m ρ c (Proc.devRef .tc main_arg9) = m ((c : Thread nD τ).loc main_arg9) :=
    (W2_of_ne m ρ c main_arg9 (by decide)).trans (Glue.pre_barma (W0 m ρ c))
  have eAgg : V5 m ρ c main_v45 = Cert.Spec.agg (m ((c : Thread nD τ).loc main_arg1)) (m ((c : Thread nD τ).loc main_arg2))
      ((dat0 (V1 m ρ) c).arrAt 7 cfg0.N) := by
    have h := Glue.mid_agg (W2 m ρ c)
    rw [eEi, eEw, eMsg] at h
    exact h
  have eRoot : V5 m ρ c main_arg8 = m ((c : Thread nD τ).loc main_arg8) :=
    (Glue.mid_wroot (W2 m ρ c)).trans ((W2_of_ne m ρ c main_arg8 (by decide)).trans (Glue.pre_wroot (W0 m ρ c)))
  have eRow : V5 m ρ c main_v46 = fun i => shapeCast S1x64 (m ((c : Thread nD τ).loc main_arg9)) shapeCasts_S64_S1x64 i := by
    have h := Glue.mid_row (W2 m ρ c)
    rw [eB] at h
    exact h
  rw [eOut, hO, eHid, eAgg, eRoot, eRow, hP, hH, x0, x3, x5, x7, r0, r1]
  rfl

/-- The value as the specification's function of the ten arguments. -/
theorem result_out
    (hH : ∀ (V : (c : Dev nD) → (b : Ref sig .tc) → Buf (Elt Ideal) ((c : Thread nD τ).loc b)) (c : Dev nD),
      (dat0 (F := Ideal) V c).arrAt 6 cfg0.N
        = Cert.Spec.hidden (V c main_arg0) (V c main_arg3) (V c main_v0) (V c main_arg5) (V c main_v1))
    (hP : ∀ (V : (c : Dev nD) → (b : Ref sig .tc) → Buf (Elt Ideal) ((c : Thread nD τ).loc b)) (c : Dev nD),
      (dat0 (F := Ideal) V c).arrAt 7 cfg0.N
        = Cert.Spec.proj (Cert.Spec.hidden (V c main_arg0) (V c main_arg3) (V c main_v0) (V c main_arg5) (V c main_v1)) (V c main_arg7))
    (hO : ∀ (V : (c : Dev nD) → (b : Ref sig .tc) → Buf (Elt Ideal) ((c : Thread nD τ).loc b)) (c : Dev nD),
      (dat1 (F := Ideal) V c).arrAt 4 cfg1.N
        = Cert.Spec.combine (V c main_v2_0) (V c main_v45) (V c main_arg8) (V c main_v46)) :
    W6 m ρ c (Proc.devRef .tc main_v47)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  rw [result_rows m ρ c hH hP hO]
  unfold Cert.Spec.out
  rw [Cert.Rows.row256 (m ((c : Thread nD τ).loc main_arg4)) shapeCasts_S256_S1x256 Cert.ReferenceIdeal.Facts₀.bcast_S256_S1x256_1,
    Cert.Rows.row64 (m ((c : Thread nD τ).loc main_arg6)) shapeCasts_S64_S1x64 Cert.ReferenceIdeal.Facts₀.bcast_S64_S1x64_1,
    Cert.Rows.row64 (m ((c : Thread nD τ).loc main_arg9)) shapeCasts_S64_S1x64 Cert.ReferenceIdeal.Facts₀.bcast_S64_S1x64_1]

end Cert.KernelIdeal.Whole

end
-- ==== Proof.DenseRows.lean ====
/-
  Row blocks. An array of 100000 rows is cut into 20 blocks of 5000 consecutive rows; `rowBlk t A` is block `t` of `A`:
  its row `r` is row `5000·t + r` of `A`. Every operation of the dense layers commutes with taking a row block:
  the element-by-element ones because they act on each element alone; a product `A·B` because row `r` of the product is
  row `r` of `A` times `B` (Σ_k A[r,k]·B[k,c] mentions no other row of `A`); a bias row repeated down the rows, and a
  scalar repeated everywhere, because every row of them is the same.
-/
import proofs.«120390_j36816459661690_2_alg».proof.Proof.Spec
import proofs.«120390_j36816459661690_2_alg».proof.Proof.Gen.KernelIdeal
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Dense

/-- Block `t` of the rows of `A`: rows `5000·t … 5000·t + 4999`. -/
def rowBlk {n : Nat} {α : Type} (t : Nat) (ht : t < 20) (A : (⟨2, ![100000, n]⟩ : Shape).Idx → α) :
    (⟨2, ![5000, n]⟩ : Shape).Idx → α :=
  fun y => A (ix2 (n0 := 100000) (n1 := n) ⟨5000 * t + (y 0).val, by have := idx2_lt0 y; omega⟩ (y 1))

theorem rowBlk_apply {n : Nat} {α : Type} (t : Nat) (ht : t < 20) (A : (⟨2, ![100000, n]⟩ : Shape).Idx → α)
    (y : (⟨2, ![5000, n]⟩ : Shape).Idx) :
    rowBlk t ht A y = A (ix2 (n0 := 100000) (n1 := n) ⟨5000 * t + (y 0).val, by have := idx2_lt0 y; omega⟩ (y 1)) := rfl

/-! ## The element-by-element operations -/

section Pointwise
variable {n : Nat} (t : Nat) (ht : t < 20)

theorem rowBlk_addf (A B : FVec Ideal ⟨2, ![100000, n]⟩ .f32) :
    rowBlk t ht (addf A B) = addf (F := Ideal) (φ := .f32) (rowBlk t ht A) (rowBlk t ht B) := rfl

theorem rowBlk_mulf (A B : FVec Ideal ⟨2, ![100000, n]⟩ .f32) :
    rowBlk t ht (mulf A B) = mulf (F := Ideal) (φ := .f32) (rowBlk t ht A) (rowBlk t ht B) := rfl

theorem rowBlk_cmpf (p : CmpFPredicate) (A B : FVec Ideal ⟨2, ![100000, n]⟩ .f32) :
    rowBlk t ht (cmpf p A B) = cmpf (F := Ideal) (φ := .f32) p (rowBlk t ht A) (rowBlk t ht B) := rfl

theorem rowBlk_select {α : Type} (C : IVec ⟨2, ![100000, n]⟩ 1) (A B : (⟨2, ![100000, n]⟩ : Shape).Idx → α) :
    rowBlk t ht (select C A B) = select (rowBlk t ht C) (rowBlk t ht A) (rowBlk t ht B) := rfl

/-- A scalar constant repeated over the whole array: every row block of it is the scalar repeated. -/
theorem rowBlk_splat (w : BitVec 32) (h : (⟨0, ![]⟩ : Shape).BroadcastsInDim ⟨2, ![100000, n]⟩ ![]) :
    rowBlk t ht (broadcastInDim ⟨2, ![100000, n]⟩ ![] h (constant (F := Ideal) ⟨0, ![]⟩ .f32 w))
      = broadcast ⟨2, ![5000, n]⟩ (Scalar.ofBits (F := Ideal) .f32 w) := rfl

/-- A bias row repeated down the rows: every row block of it is the row repeated down 5000 rows. -/
theorem rowBlk_biasRow (row : FVec Ideal ⟨2, ![1, n]⟩ .f32)
    (h : (⟨2, ![1, n]⟩ : Shape).BroadcastsInDim ⟨2, ![100000, n]⟩ ![0, 1])
    (h' : (⟨2, ![1, n]⟩ : Shape).ShapeCasts ⟨2, ![1, n]⟩) (h'' : (⟨2, ![1, n]⟩ : Shape).Broadcasts ⟨2, ![5000, n]⟩) :
    rowBlk t ht (broadcastInDim ⟨2, ![100000, n]⟩ ![0, 1] h row)
      = broadcastTo ⟨2, ![5000, n]⟩ (shapeCast ⟨2, ![1, n]⟩ row h') h'' := by
  funext y
  have hy : (y 1).val < n := idx2_lt1 y
  rw [shapeCast_self, rowBlk_apply,
    broadcastInDim_apply _ _ row _ (ix2 (n0 := 1) (n1 := n) 0 (y 1)) (fun a => by
      match a with
      | ⟨0, _⟩ => rfl
      | ⟨1, _⟩ => show (y 1).val = if n = 1 then 0 else (y 1).val; split_ifs <;> omega),
    broadcastTo_apply row h'' y (ix2 (n0 := 1) (n1 := n) 0 (y 1)) (fun a => by
      match a with
      | ⟨0, _⟩ => rfl
      | ⟨1, _⟩ => show (y 1).val = if n = 1 then 0 else (y 1).val; split_ifs <;> omega)]

end Pointwise

/-! ## A product -/

section Product
variable {M K N : Nat} (d : DotDims ⟨2, ![M, K]⟩ ⟨2, ![K, N]⟩ ⟨2, ![M, N]⟩)

/-- The dimension numbers of a plain matrix product, rows × contraction times contraction × columns: the left
    operand contracts its second axis, the right its first, and there is no batch axis. -/
def IsPlain : Prop :=
  d.lhsContracting = [1] ∧ d.rhsContracting = [0] ∧ d.lhsNonContracting = [0] ∧ d.rhsNonContracting = [1]
    ∧ d.lhsBatch = [] ∧ d.rhsBatch = []

variable {d}

theorem IsPlain.contr_rank (h : IsPlain d) : d.contr.rank = 1 := by rw [d.rank_contr, h.1]; rfl

theorem IsPlain.contr_size (h : IsPlain d) : d.contr.size ⟨0, by rw [h.contr_rank]; exact Nat.one_pos⟩ = K := by
  rw [d.size_contr 0 (by rw [h.1]; exact Nat.one_pos)]
  simp only [h.1]
  rfl

/-- The left operand's row is the result's row … -/
theorem IsPlain.lhs_row (h : IsPlain d) (j : (⟨2, ![M, N]⟩ : Shape).Idx) (q : d.contr.Idx) :
    (d.lhsIdx j q 0).val = (j 0).val := by
  obtain ⟨-, -, h3, -, h5, -⟩ := h
  unfold DotDims.lhsIdx
  rw [dif_neg (by rw [h5]; exact List.not_mem_nil), dif_pos (by rw [h3]; exact List.mem_singleton.mpr rfl)]
  simp only [Fin.val_cast]
  have key : ∀ (p r : Nat) (hp : p < 2) (hr : r < 2), p = r → (j ⟨p, hp⟩).val = (j ⟨r, hr⟩).val :=
    fun p r hp hr e => by subst e; rfl
  exact key _ _ _ _ (by simp [h5, h3])

/-- … and the right operand's column the result's column. -/
theorem IsPlain.rhs_col (h : IsPlain d) (j : (⟨2, ![M, N]⟩ : Shape).Idx) (q : d.contr.Idx) :
    (d.rhsIdx j q 1).val = (j 1).val := by
  obtain ⟨-, -, h3, h4, h5, h6⟩ := h
  unfold DotDims.rhsIdx
  rw [dif_neg (by rw [h6]; exact List.not_mem_nil), dif_pos (by rw [h4]; exact List.mem_singleton.mpr rfl)]
  simp only [Fin.val_cast]
  have key : ∀ (p r : Nat) (hp : p < 2) (hr : r < 2), p = r → (j ⟨p, hp⟩).val = (j ⟨r, hr⟩).val :=
    fun p r hp hr e => by subst e; rfl
  exact key _ _ _ _ (by simp [h5, h3, h4])

/-- The contraction of a plain product at the result's index (r, c): Σ_k L[r,k]·R[k,c]. -/
theorem IsPlain.sum_eq (h : IsPlain d) (L : (⟨2, ![M, K]⟩ : Shape).Idx → EReal) (R : (⟨2, ![K, N]⟩ : Shape).Idx → EReal)
    (j : (⟨2, ![M, N]⟩ : Shape).Idx) :
    ∑ k : d.contr.Idx, L (d.lhsIdx j k) * R (d.rhsIdx j k)
      = ∑ k : Fin K, L (ix2 (n0 := M) (n1 := K) (j 0) k) * R (ix2 (n0 := K) (n1 := N) k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (n0 := M) (n1 := K) (j 0) k :=
    funext fun a => Fin.ext (by
      match a with
      | ⟨0, _⟩ => exact h.lhs_row j _
      | ⟨1, _⟩ => exact (d.lhsIdx_val_of_single h.1 j _).trans hk)
  have er : d.rhsIdx j ((contrEquiv1 d K h.contr_rank h.contr_size).symm k) = ix2 (n0 := K) (n1 := N) k (j 1) :=
    funext fun a => Fin.ext (by
      match a with
      | ⟨0, _⟩ => exact (d.rhsIdx_val_of_single h.2.1 j _).trans hk
      | ⟨1, _⟩ => exact h.rhs_col j _)
  rw [el, er]

end Product

/-- Row block `t` of the product `A·B` is the product of row block `t` of `A` with `B`, accumulated onto zero:
    both are Σ_k A[5000·t + r, k]·B[k, c] at (r, c). -/
theorem rowBlk_dot {K N : Nat} (t : Nat) (ht : t < 20)
    {dR : DotDims ⟨2, ![100000, K]⟩ ⟨2, ![K, N]⟩ ⟨2, ![100000, N]⟩} (hR : IsPlain dR)
    {dK : DotDims ⟨2, ![5000, K]⟩ ⟨2, ![K, N]⟩ ⟨2, ![5000, N]⟩} (hK : IsPlain dK)
    (A : FVec Ideal ⟨2, ![100000, K]⟩ .f32) (B : FVec Ideal ⟨2, ![K, N]⟩ .f32) :
    rowBlk t ht (Host.dotGeneral (F := Ideal) dR none A B)
      = matmul (F := Ideal) dK none (rowBlk t ht A) B (constant ⟨2, ![5000, N]⟩ .f32 0x00000000#32) := by
  funext y
  rw [rowBlk_apply]
  simp only [Host.dotGeneral, matmul]
  rw [Ideal.dotGeneral_apply, Ideal.matmul_constant_zero_apply, hR.sum_eq, hK.sum_eq]
  rfl

end Cert.KernelIdeal.Dense

end
-- ==== Proof.DensePoint.lean ====
/-
  One grid point of the dense layers. The body's arithmetic, applied to row block `t` of the node features and to the
  whole weight matrices and bias rows, is row block `t` of the dense layers of the whole array: each operation of the
  body is the row-block form of the operation the whole-array term applies at the same place.
-/
import proofs.«120390_j36816459661690_2_alg».proof.Proof.DenseRows
import proofs.«120390_j36816459661690_2_alg».proof.Proof.Gen.KernelIdeal.Skeleton

noncomputable section

open Idealize.ShloMosaic Idealize.ShloMosaic.ValueIdx
open Cert.KernelIdeal Cert.KernelIdeal.Facts₀

namespace Cert.KernelIdeal.Dense

/-! ## The six products are plain -/

theorem plain_pre_blk : IsPlain dot_S5000x256_S256x256_S5000x256_1_0_0_1_n_n := ⟨rfl, rfl, rfl, rfl, rfl, rfl⟩
theorem plain_lin_blk : IsPlain dot_S5000x256_S256x64_S5000x64_1_0_0_1_n_n := ⟨rfl, rfl, rfl, rfl, rfl, rfl⟩
theorem plain_init_blk : IsPlain dot_S5000x64_S64x64_S5000x64_1_0_0_1_n_n := ⟨rfl, rfl, rfl, rfl, rfl, rfl⟩
theorem plain_pre : IsPlain Cert.ReferenceIdeal.dot_S100000x256_S256x256_S100000x256_1_0_0_1_n_n := ⟨rfl, rfl, rfl, rfl, rfl, rfl⟩
theorem plain_lin : IsPlain Cert.ReferenceIdeal.dot_S100000x256_S256x64_S100000x64_1_0_0_1_n_n := ⟨rfl, rfl, rfl, rfl, rfl, rfl⟩
theorem plain_init : IsPlain Cert.ReferenceIdeal.dot_S100000x64_S64x64_S100000x64_1_0_0_1_n_n := ⟨rfl, rfl, rfl, rfl, rfl, rfl⟩

/-! ## The two stored values -/

/-- What the body stores to the hidden-layer window, from row block `t` of `x`: row block `t` of
    lrelu((x·W_pre + b_pre)·W_lin + b_lin). -/
theorem hidden_blk (t : Nat) (ht : t < 20) (x : FVec Ideal S100000x256 .f32) (wpre : FVec Ideal S256x256 .f32)
    (bpre : FVec Ideal S1x256 .f32) (wlin : FVec Ideal S256x64 .f32) (blin : FVec Ideal S1x64 .f32) :
    Gen.k0_pay1 (F := Ideal) (rowBlk t ht x) wpre bpre wlin blin = rowBlk t ht (Cert.Spec.hidden x wpre bpre wlin blin) := by
  unfold Gen.k0_pay1 Cert.Spec.hidden Cert.Spec.lrelu
  simp only [rowBlk_select, rowBlk_cmpf, rowBlk_mulf, rowBlk_addf, rowBlk_splat,
    rowBlk_biasRow t ht _ _ shapeCasts_S1x256_S1x256 broadcasts_S1x256_S5000x256,
    rowBlk_biasRow t ht _ _ shapeCasts_S1x64_S1x64 broadcasts_S1x64_S5000x64,
    rowBlk_dot t ht plain_pre plain_pre_blk, rowBlk_dot t ht plain_lin plain_lin_blk]
  rfl

/-- What the body stores to the message window: row block `t` of hidden·W_init (the narrowing of the format is the
    identity on extended reals). -/
theorem proj_blk (t : Nat) (ht : t < 20) (x : FVec Ideal S100000x256 .f32) (wpre : FVec Ideal S256x256 .f32)
    (bpre : FVec Ideal S1x256 .f32) (wlin : FVec Ideal S256x64 .f32) (blin : FVec Ideal S1x64 .f32) (winit : FVec Ideal S64x64 .f32) :
    Gen.k0_pay2 (F := Ideal) (rowBlk t ht x) wpre bpre wlin blin winit
      = rowBlk t ht (Cert.Spec.proj (Cert.Spec.hidden x wpre bpre wlin blin) winit) := by
  unfold Gen.k0_pay2 Cert.Spec.proj
  rw [hidden_blk, rowBlk_dot t ht plain_init plain_init_blk]
  rfl

end Cert.KernelIdeal.Dense

end
-- ==== Proof.DenseArr.lean ====
/-
  From the grid's blocks to the two result arrays of the dense layers. Point `t` of the 20-point grid reads rows
  `5000·t … 5000·t + 4999` of the node features and the whole weight matrices and bias rows, and writes back rows
  `5000·t … 5000·t + 4999` of each result; what it writes is that row block of the dense layers of the whole arrays
  (the per-point statement), and the 20 row blocks tile the 100000 rows, so each result array ends holding the dense
  layers of the whole arrays.
-/
import proofs.«120390_j36816459661690_2_alg».proof.Proof.DensePoint
import proofs.«120390_j36816459661690_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal

namespace Cert.KernelIdeal.Dense

variable (V : (c : Dev nD) → (b : Ref sig .tc) → Buf (Elt Ideal) ((c : Thread nD τ).loc b)) (c : Dev nD)

theorem zero_offsets : (![0, 0] : Fin 2 → Nat) = fun _ => 0 := funext fun a => by fin_cases a <;> rfl

/-- The grid has 20 points. -/
theorem lt20 (t : Fin cfg0.N) : t.val < 20 := by
  have h : t.val < cfg0.N := t.isLt
  have e : cfg0.N = 20 := Gen.N_0
  omega

/-- The printed index maps, decided over the grid: at point `t` the three row-tiled windows (the node features and the
    two results) are at block (t, 0), the weight and bias windows at block (0, 0). -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! ## The input blocks at a point -/

/-- The node features' block at point `t` is row block `t` of the array. -/
theorem iblk_x (t : Fin cfg0.N) :
    (Gen.iblk0 V c 0 t : Vec Ideal S5000x256 .f32) = rowBlk t.val (lt20 t) (V c main_arg0 : FVec Ideal S100000x256 .f32) := by
  obtain ⟨⟨e0, e1⟩, -⟩ := idx_facts t
  funext y
  unfold Gen.iblk0
  rw [View.read_apply, rowBlk_apply]
  show V c main_arg0 (((cfg0.win 0).blk t).view.emb y) = V c main_arg0 _
  refine congrArg _ (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 256 + 1 * (y 1).val = (y 1).val; rw [e1]; omega

/-- A weight or bias window's block at any point is the whole array. -/
theorem iblk_wpre (t : Fin cfg0.N) : (Gen.iblk0 V c 1 t : Vec Ideal S256x256 .f32) = (V c main_arg3 : FVec Ideal S256x256 .f32) := by
  obtain ⟨-, ⟨e0, e1⟩, -⟩ := idx_facts t
  funext y
  unfold Gen.iblk0
  rw [View.read_apply]
  show V c main_arg3 (((cfg0.win 1).blk t).view.emb y) = V c main_arg3 y
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

theorem iblk_bpre (t : Fin cfg0.N) : (Gen.iblk0 V c 2 t : Vec Ideal S1x256 .f32) = (V c main_v0 : FVec Ideal S1x256 .f32) := by
  obtain ⟨-, -, ⟨e0, e1⟩, -⟩ := idx_facts t
  funext y
  unfold Gen.iblk0
  rw [View.read_apply]
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem iblk_wlin (t : Fin cfg0.N) : (Gen.iblk0 V c 3 t : Vec Ideal S256x64 .f32) = (V c main_arg5 : FVec Ideal S256x64 .f32) := by
  obtain ⟨-, -, -, ⟨e0, e1⟩, -⟩ := idx_facts t
  funext y
  unfold Gen.iblk0
  rw [View.read_apply]
  show V c main_arg5 (((cfg0.win 3).blk t).view.emb y) = V c main_arg5 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 64 + 1 * (y 1).val = (y 1).val; rw [e1]; omega

theorem iblk_blin (t : Fin cfg0.N) : (Gen.iblk0 V c 4 t : Vec Ideal S1x64 .f32) = (V c main_v1 : FVec Ideal S1x64 .f32) := by
  obtain ⟨-, -, -, -, ⟨e0, e1⟩, -⟩ := idx_facts t
  funext y
  unfold Gen.iblk0
  rw [View.read_apply]
  show V c main_v1 (((cfg0.win 4).blk t).view.emb y) = V c main_v1 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem iblk_winit (t : Fin cfg0.N) : (Gen.iblk0 V c 5 t : Vec Ideal S64x64 .f32) = (V c main_arg7 : FVec Ideal S64x64 .f32) := by
  obtain ⟨-, -, -, -, -, ⟨e0, e1⟩, -⟩ := idx_facts t
  funext y
  unfold Gen.iblk0
  rw [View.read_apply]
  show V c main_arg7 (((cfg0.win 5).blk t).view.emb y) = V c main_arg7 y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-! ## A result's block at a point, and what the point writes back -/

/-- Point `t`'s block of the hidden-layer array, read off any contents, is row block `t` of them. -/
theorem read_blk_hidden (t : Fin cfg0.N) (G : FVec Ideal S100000x64 .f32) :
    ((cfg0.win 6).blk t).view.read (Elt Ideal) G = rowBlk t.val (lt20 t) G := by
  obtain ⟨-, -, -, -, -, -, ⟨e0, e1⟩, -⟩ := idx_facts t
  funext y
  rw [View.read_apply, rowBlk_apply]
  refine congrArg G (funext fun a => Fin.ext ?_)
  match a with
  | ⟨0, _⟩ => show win0_6.index t (0 : Fin 2) * 5000 + 1 * (y 0).val = 5000 * t.val + (y 0).val; rw [e0]; omega
  | ⟨1, _⟩ => show win0_6.index t (1 : Fin 2) * 64 + 1 * (y 1).val = (y 1).val; rw [e1]; omega

/-- Likewise for the message array. -/
theorem read_blk_proj (t : Fin cfg0.N) (G : FVec Ideal S100000x64 .f32) :
    ((cfg0.win 7).blk t).view.read (Elt Ideal) G = rowBlk t.val (lt20 t) G := by
  obtain ⟨-, -, -, -, -, -, -, ⟨e0, e1⟩⟩ := idx_facts t
  funext y
  rw [View.read_apply, rowBlk_apply]
  refine congrArg G (funext fun a => Fin.ext ?_)
  match a with
  | ⟨0, _⟩ => show win0_7.index t (0 : Fin 2) * 5000 + 1 * (y 0).val = 5000 * t.val + (y 0).val; rw [e0]; omega
  | ⟨1, _⟩ => show win0_7.index t (1 : Fin 2) * 64 + 1 * (y 1).val = (y 1).val; rw [e1]; omega

/-- What point `t` writes back to the hidden-layer array is block `t` of the dense layers of the whole arrays. -/
theorem flushed_hidden (t : Fin cfg0.N) :
    (Gen.dat0 (F := Ideal) V c).flushed 6 t = ((cfg0.win 6).blk t).view.read (Elt Ideal)
      (Cert.Spec.hidden (V c main_arg0) (V c main_arg3) (V c main_v0) (V c main_arg5) (V c main_v1)) := by
  show (cfg0.win 6).cut (grid0.coords t) ((Gen.dat0 (F := Ideal) V c).after 6 t) = _
  rw [Gen.after0_6]
  unfold Gen.out0_6
  rw [View.canon_unit_zero zero_offsets]
  simp only [View.ld_unit_zero (S := S5000x256) zero_offsets, View.ld_unit_zero (S := S256x256) zero_offsets,
    View.ld_unit_zero (S := S1x256) zero_offsets, View.ld_unit_zero (S := S256x64) zero_offsets,
    View.ld_unit_zero (S := S1x64) zero_offsets]
  rw [iblk_x, iblk_wpre, iblk_bpre, iblk_wlin, iblk_blin, hidden_blk, read_blk_hidden]
  rfl

/-- What point `t` writes back to the message array is block `t` of hidden·W_init of the whole arrays. -/
theorem flushed_proj (t : Fin cfg0.N) :
    (Gen.dat0 (F := Ideal) V c).flushed 7 t = ((cfg0.win 7).blk t).view.read (Elt Ideal)
      (Cert.Spec.proj (Cert.Spec.hidden (V c main_arg0) (V c main_arg3) (V c main_v0) (V c main_arg5) (V c main_v1)) (V c main_arg7)) := by
  show (cfg0.win 7).cut (grid0.coords t) ((Gen.dat0 (F := Ideal) V c).after 7 t) = _
  rw [Gen.after0_7]
  unfold Gen.out0_7
  rw [View.canon_unit_zero zero_offsets]
  simp only [View.ld_unit_zero (S := S5000x256) zero_offsets, View.ld_unit_zero (S := S256x256) zero_offsets,
    View.ld_unit_zero (S := S1x256) zero_offsets, View.ld_unit_zero (S := S256x64) zero_offsets,
    View.ld_unit_zero (S := S1x64) zero_offsets, View.ld_unit_zero (S := S64x64) zero_offsets]
  rw [iblk_x, iblk_wpre, iblk_bpre, iblk_wlin, iblk_blin, iblk_winit, proj_blk, read_blk_proj]
  rfl

/-! ## The 20 row blocks tile the rows -/

/-- An index of the hidden-layer array is in point `t`'s block iff each coordinate is in the block's range on its axis. -/
theorem mem_blk_hidden (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v2_0).slice (win0_6.rect t)).set ↔ _
  rw [View.set_slice_whole, Rect.mem_set_unit]
  exact Iff.rfl

theorem mem_blk_proj (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v2_1).slice (win0_7.rect t)).set ↔ _
  rw [View.set_slice_whole, Rect.mem_set_unit]
  exact Iff.rfl

/-- Row `r` is in the block of point `r / 5000`. -/
theorem cover_hidden (i : S100000x64.Idx) :
    ∃ t : Fin cfg0.N, (cfg0.win 6).flush t = true ∧ i ∈ ((cfg0.win 6).blk t).view.set := by
  have hi0 : (i 0).val < 100000 := idx2_lt0 i
  have hi1 : (i 1).val < 64 := idx2_lt1 i
  obtain ⟨t, ht⟩ : ∃ t : Fin cfg0.N, t.val = (i 0).val / 5000 :=
    ⟨⟨(i 0).val / 5000, by rw [show cfg0.N = 20 from Gen.N_0]; omega⟩, rfl⟩
  obtain ⟨-, -, -, -, -, -, ⟨e0, e1⟩, -⟩ := idx_facts t
  refine ⟨t, Gen.flush0_6 t, ?_⟩
  rw [mem_blk_hidden]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 64 ≤ (i 1).val ∧ (i 1).val < win0_6.index t (1 : Fin 2) * 64 + 64
    rw [e1]; omega

theorem cover_proj (i : S100000x64.Idx) :
    ∃ t : Fin cfg0.N, (cfg0.win 7).flush t = true ∧ i ∈ ((cfg0.win 7).blk t).view.set := by
  have hi0 : (i 0).val < 100000 := idx2_lt0 i
  have hi1 : (i 1).val < 64 := idx2_lt1 i
  obtain ⟨t, ht⟩ : ∃ t : Fin cfg0.N, t.val = (i 0).val / 5000 :=
    ⟨⟨(i 0).val / 5000, by rw [show cfg0.N = 20 from Gen.N_0]; omega⟩, rfl⟩
  obtain ⟨-, -, -, -, -, -, -, ⟨e0, e1⟩⟩ := idx_facts t
  refine ⟨t, Gen.flush0_7 t, ?_⟩
  rw [mem_blk_proj]
  intro a
  match a with
  | ⟨0, _⟩ =>
    show win0_7.index t (0 : Fin 2) * 5000 ≤ (i 0).val ∧ (i 0).val < win0_7.index t (0 : Fin 2) * 5000 + 5000
    rw [e0, ht]; omega
  | ⟨1, _⟩ =>
    show win0_7.index t (1 : Fin 2) * 64 ≤ (i 1).val ∧ (i 1).val < win0_7.index t (1 : Fin 2) * 64 + 64
    rw [e1]; omega

/-! ## The two arrays after the region -/

/-- The hidden-layer array ends holding lrelu((x·W_pre + b_pre)·W_lin + b_lin) of the arrays the region found. -/
theorem hidden_arr :
    (Gen.dat0 (F := Ideal) V c).arrAt 6 cfg0.N
      = Cert.Spec.hidden (V c main_arg0) (V c main_arg3) (V c main_v0) (V c main_arg5) (V c main_v1) :=
  (Gen.dat0 (F := Ideal) V c).arrAt_eq_of_cover 6 _ (fun t _ => flushed_hidden V c t) cover_hidden

/-- The message array ends holding hidden·W_init. -/
theorem proj_arr :
    (Gen.dat0 (F := Ideal) V c).arrAt 7 cfg0.N
      = Cert.Spec.proj (Cert.Spec.hidden (V c main_arg0) (V c main_arg3) (V c main_v0) (V c main_arg5) (V c main_v1))
          (V c main_arg7) :=
  (Gen.dat0 (F := Ideal) V c).arrAt_eq_of_cover 7 _ (fun t _ => flushed_proj V c t) cover_proj

end Cert.KernelIdeal.Dense

end
-- ==== Proof.CombineCell.lean ====
/-
  The last layer on one entry, and the combine body's block payload against it.

  For an entry h of the hidden array, a of the aggregate, r of hidden·W_root and b of the bias row, the last layer's
  entry is  cell h a r b = tanh(h + lrelu(max(a + r + b, 0))),  lrelu(v) = v where v ≥ 0, else f32(0.01)·v.
  Both the body's payload on a block of 5000 rows and the specification's last layer on the whole array are `cell`
  entry by entry; a product row of a row block is the same sum over the 64 contracted entries as the product row of
  the whole array, and the bias row is laid along every row in both. So the payload of the row blocks is the row
  block of the last layer.
-/
import proofs.«120390_j36816459661690_2_alg».proof.Proof.Spec
import proofs.«120390_j36816459661690_2_alg».proof.Proof.Gen.KernelIdeal.Skeleton
import Idealize.ShloMosaic.Lib.ValueLayout
import Idealize.ShloMosaic.Lib.StackMember

noncomputable section

namespace Cert.KernelIdeal.Combine

open Idealize.ShloMosaic Idealize.ShloMosaic.ValueIdx Cert.KernelIdeal

/-! ## Rows of a block as rows of the array -/

/-- Row `a` of the `t`-th block of 5000 rows is row `5000·t + a` of the array (20 blocks). -/
def rowOf (t : Nat) (ht : t < 20) (a : Fin 5000) : Fin 100000 := ⟨5000 * t + a.val, by have := a.isLt; omega⟩

/-- The `t`-th block of 5000 rows of an array of 100000 rows. -/
def rowBlk (t : Nat) (ht : t < 20) {n : Nat} (A : (⟨2, ![100000, n]⟩ : Shape).Idx → EReal) :
    (⟨2, ![5000, n]⟩ : Shape).Idx → EReal :=
  fun y => A (ix2 (rowOf t ht (y 0)) (y 1))

theorem rowBlk_apply (t : Nat) (ht : t < 20) {n : Nat} (A : (⟨2, ![100000, n]⟩ : Shape).Idx → EReal) (p : Fin 5000) (q : Fin n) :
    rowBlk t ht A (ix2 p q) = A (ix2 (rowOf t ht p) q) := rfl

/-! ## One entry of the last layer -/

/-- tanh(h + lrelu(max(a + r + b, 0))): the zero and the slope as the f32 words' values. -/
def cell (h a r b : EReal) : EReal :=
  Ideal.tanh (h + Scalar.select
    (Ideal.cmp .oge (max (a + r + b) (Ideal.ofBits .f32 0x00000000#32)) (Ideal.ofBits .f32 0x00000000#32))
    (max (a + r + b) (Ideal.ofBits .f32 0x00000000#32))
    (Ideal.ofBits .f32 0x3C23D70A#32 * max (a + r + b) (Ideal.ofBits .f32 0x00000000#32)))

/-- The body's payload at an entry: `cell` of the two blocks' entries, the product's entry and the broadcast bias's entry. -/
theorem pay_cell (x : FVec Ideal S5000x64 .f32) (w : FVec Ideal S64x64 .f32) (g : FVec Ideal S5000x64 .f32)
    (b : FVec Ideal S1x64 .f32) (j : S5000x64.Idx) :
    Gen.k1_pay1 (F := Ideal) x w g b j
      = cell (x j) (g j)
          (matmul dot_S5000x64_S64x64_S5000x64_1_0_0_1_n_n none x w (constant (F := Ideal) S5000x64 .f32 0x00000000#32) j)
          (broadcastTo S5000x64 b Gen.broadcasts_S1x64_S5000x64 j) := by
  unfold Gen.k1_pay1
  simp only [shapeCast_self]
  rfl

/-- The specification's last layer at an entry: `cell` of the two arrays' entries, the product's entry and the broadcast bias's entry. -/
theorem combine_cell (h ag : FVec Ideal Cert.ReferenceIdeal.S100000x64 .f32) (w : FVec Ideal Cert.ReferenceIdeal.S64x64 .f32)
    (b : FVec Ideal Cert.ReferenceIdeal.S1x64 .f32) (i : Cert.ReferenceIdeal.S100000x64.Idx) :
    Cert.Spec.combine h ag w b i
      = cell (h i) (ag i)
          (Host.dotGeneral Cert.ReferenceIdeal.dot_S100000x64_S64x64_S100000x64_1_0_0_1_n_n none h w i)
          (broadcastInDim Cert.ReferenceIdeal.S100000x64 ![0, 1] Cert.ReferenceIdeal.Facts₀.bcast_S1x64_S100000x64_0_1 b i) := by
  unfold Cert.Spec.combine Cert.Spec.lrelu
  rfl

/-! ## The two non-pointwise entries -/

/-- The body's product into a zero accumulator, at an entry: the sum over the 64 contracted entries. -/
theorem matmul_entry (x : FVec Ideal S5000x64 .f32) (w : FVec Ideal S64x64 .f32) (p : Fin 5000) (q : Fin 64) :
    matmul dot_S5000x64_S64x64_S5000x64_1_0_0_1_n_n none x w (constant (F := Ideal) S5000x64 .f32 0x00000000#32) (ix2 p q)
      = ∑ c : Fin 64, x (ix2 p c) * w (ix2 c q) := by
  rw [matmul_zero_eq_dotGeneral]
  exact StackMember.dotGeneral_plain_apply (m := 5000) (n := 64) (k := 64) none x w p q

/-- The specification's product at an entry: the same sum. -/
theorem dot_entry (h : FVec Ideal Cert.ReferenceIdeal.S100000x64 .f32) (w : FVec Ideal Cert.ReferenceIdeal.S64x64 .f32)
    (r : Fin 100000) (q : Fin 64) :
    Host.dotGeneral Cert.ReferenceIdeal.dot_S100000x64_S64x64_S100000x64_1_0_0_1_n_n none h w (ix2 r q)
      = ∑ c : Fin 64, h (ix2 r c) * w (ix2 c q) :=
  StackMember.dotGeneral_plain_apply (m := 100000) (n := 64) (k := 64) none h w r q

/-! ## The payload of the row blocks is the row block of the last layer -/

theorem pay_entry (t : Nat) (ht : t < 20) (h ag : FVec Ideal Cert.ReferenceIdeal.S100000x64 .f32)
    (w : FVec Ideal Cert.ReferenceIdeal.S64x64 .f32) (b : FVec Ideal Cert.ReferenceIdeal.S1x64 .f32) (p : Fin 5000) (q : Fin 64) :
    Gen.k1_pay1 (F := Ideal) (rowBlk t ht h) w (rowBlk t ht ag) b (ix2 p q) = Cert.Spec.combine h ag w b (ix2 (rowOf t ht p) q) := by
  rw [pay_cell, combine_cell, matmul_entry, dot_entry, broadcastTo_1b_ab_apply, broadcastInDim_oneRow_apply]
  rfl

theorem pay_rows (t : Nat) (ht : t < 20) (h ag : FVec Ideal Cert.ReferenceIdeal.S100000x64 .f32)
    (w : FVec Ideal Cert.ReferenceIdeal.S64x64 .f32) (b : FVec Ideal Cert.ReferenceIdeal.S1x64 .f32) :
    Gen.k1_pay1 (F := Ideal) (rowBlk t ht h) w (rowBlk t ht ag) b = rowBlk t ht (Cert.Spec.combine h ag w b) := by
  funext y
  obtain ⟨p, q, rfl⟩ : ∃ (p : Fin 5000) (q : Fin 64), y = ix2 p q := ⟨y 0, y 1, eq_ix2 y⟩
  exact pay_entry t ht h ag w b p q

end Cert.KernelIdeal.Combine

end
-- ==== Proof.Combine.lean ====
/-
  The combine region's result array is the specification's last layer of the arrays the region finds.

  Every grid point t of the 20 reads rows 5000·t … 5000·t+4999 of the hidden and aggregate arrays and the whole
  W_root and bias row, and writes back rows 5000·t … 5000·t+4999 of the result; what it writes is the body's payload of
  those blocks, which is the same row block of the last layer of the whole arrays. Row r of the result is covered by
  point r / 5000, so after the 20 points the result array is the last layer.
-/
import proofs.«120390_j36816459661690_2_alg».proof.Proof.CombineCell
import proofs.«120390_j36816459661690_2_alg».proof.Proof.Gen.KernelIdeal.Frame
import Idealize.ShloMosaic.Lib.Pipeline.Value

noncomputable section

namespace Cert.KernelIdeal.Combine

open Idealize.ShloMosaic Idealize.ShloMosaic.TcCoe Idealize.ShloMosaic.ValueIdx Idealize.SL.Sem Cert.KernelIdeal
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The grid has 20 points. -/
theorem lt20 (t : Fin cfg1.N) : t.val < 20 := lt_of_lt_of_eq t.isLt Gen.N_1

/-- The printed index maps over the grid: the hidden, aggregate and result windows are at block row t, column block 0;
    the W_root and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The hidden window's block at point t is the t-th row block of the hidden array. -/
theorem iblk_hidden (c : Dev nD) (t : Fin cfg1.N) :
    (Gen.iblk1 V c 0 t : S5000x64.Idx → EReal) = rowBlk t.val (lt20 t) (V c main_v2_0 : S100000x64.Idx → EReal) := by
  obtain ⟨e0, e1, -⟩ := idx_facts t
  funext y
  show V c main_v2_0 (((cfg1.win 0).blk t).view.emb y) = V c main_v2_0 (ix2 (rowOf t.val (lt20 t) (y 0)) (y 1))
  refine congrArg (V c main_v2_0) ?_
  funext a; apply Fin.ext
  match a with
  | ⟨0, _⟩ => show win1_0.index t (0 : Fin 2) * 5000 + 1 * (y 0).val = 5000 * t.val + (y 0).val; omega
  | ⟨1, _⟩ => show win1_0.index t (1 : Fin 2) * 64 + 1 * (y 1).val = (y 1).val; omega

/-- The aggregate window's block at point t is the t-th row block of the aggregate array. -/
theorem iblk_agg (c : Dev nD) (t : Fin cfg1.N) :
    (Gen.iblk1 V c 1 t : S5000x64.Idx → EReal) = rowBlk t.val (lt20 t) (V c main_v45 : S100000x64.Idx → EReal) := by
  obtain ⟨-, -, e0, e1, -⟩ := idx_facts t
  funext y
  show V c main_v45 (((cfg1.win 1).blk t).view.emb y) = V c main_v45 (ix2 (rowOf t.val (lt20 t) (y 0)) (y 1))
  refine congrArg (V c main_v45) ?_
  funext a; apply Fin.ext
  match a with
  | ⟨0, _⟩ => show win1_1.index t (0 : Fin 2) * 5000 + 1 * (y 0).val = 5000 * t.val + (y 0).val; omega
  | ⟨1, _⟩ => show win1_1.index t (1 : Fin 2) * 64 + 1 * (y 1).val = (y 1).val; omega

/-- The W_root window's block at every point is the whole W_root. -/
theorem iblk_wroot (c : Dev nD) (t : Fin cfg1.N) :
    (Gen.iblk1 V c 2 t : S64x64.Idx → EReal) = (V c main_arg8 : S64x64.Idx → EReal) := by
  obtain ⟨-, -, -, -, e0, e1, -⟩ := idx_facts t
  funext y
  show V c main_arg8 (((cfg1.win 2).blk t).view.emb y) = V c main_arg8 y
  refine congrArg (V c main_arg8) ?_
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias window's block at every point is the whole bias row. -/
theorem iblk_bias (c : Dev nD) (t : Fin cfg1.N) :
    (Gen.iblk1 V c 3 t : S1x64.Idx → EReal) = (V c main_v46 : S1x64.Idx → EReal) := by
  obtain ⟨-, -, -, -, -, -, e0, e1, -⟩ := idx_facts t
  funext y
  show V c main_v46 (((cfg1.win 3).blk t).view.emb y) = V c main_v46 y
  refine congrArg (V c main_v46) ?_
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- An array of the result's shape read through the result window's block at point t is its t-th row block. -/
theorem read_out (c : Dev nD) (t : Fin cfg1.N) (G : S100000x64.Idx → EReal) :
    (((cfg1.win 4).blk t).view.read (Elt Ideal) G : S5000x64.Idx → EReal) = rowBlk t.val (lt20 t) G := by
  obtain ⟨-, -, -, -, -, -, -, -, e0, e1⟩ := idx_facts t
  funext y
  show G (((cfg1.win 4).blk t).view.emb y) = G (ix2 (rowOf t.val (lt20 t) (y 0)) (y 1))
  refine congrArg G ?_
  funext a; apply Fin.ext
  match a with
  | ⟨0, _⟩ => show win1_4.index t (0 : Fin 2) * 5000 + 1 * (y 0).val = 5000 * t.val + (y 0).val; omega
  | ⟨1, _⟩ => show win1_4.index t (1 : Fin 2) * 64 + 1 * (y 1).val = (y 1).val; omega

/-- What point t writes back is the t-th row block of the last layer of the arrays the region finds. -/
theorem flushed_eq (c : Dev nD) (t : Fin cfg1.N) :
    (Gen.dat1 (F := Ideal) V c).flushed 4 t
      = ((cfg1.win 4).blk t).view.read (Elt Ideal)
          (Cert.Spec.combine (V c main_v2_0) (V c main_v45) (V c main_arg8) (V c main_v46)) := by
  show (cfg1.win 4).cut (grid1.coords t) ((Gen.dat1 (F := Ideal) V c).after 4 t) = _
  rw [Gen.after1_4]
  unfold Gen.out1_4
  rw [View.canon_unit_zero hz]
  simp only [View.ld_unit_zero (S := S5000x64) hz, View.ld_unit_zero (S := S64x64) hz, View.ld_unit_zero (S := S1x64) hz]
  rw [iblk_hidden, iblk_agg, iblk_wroot, iblk_bias]
  rw [pay_rows]
  exact (read_out c t _).symm

/-- An index of the result array is in point t's block iff each coordinate is in the block's range on its axis. -/
theorem mem_blk (t : Fin cfg1.N) (i : S100000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v47).slice (win1_4.rect t)).set ↔ _
  rw [View.set_slice_whole, Rect.mem_set_unit]
  exact Iff.rfl

/-- Row r of the result is written back by point r / 5000. -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, lt_of_lt_of_eq (by omega : (i 0).val / 5000 < 20) Gen.N_1.symm⟩, rfl⟩
  obtain ⟨-, -, -, -, -, -, -, -, e0, e1⟩ := idx_facts t
  refine ⟨t, Gen.flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- THE RESULT ARRAY after the region: the last layer of the hidden array, the aggregate, W_root and the bias row as
    the region finds them. -/
theorem out_arr (c : Dev nD) :
    (Gen.dat1 (F := Ideal) V c).arrAt 4 cfg1.N
      = Cert.Spec.combine (V c main_v2_0) (V c main_v45) (V c main_arg8) (V c main_v46) :=
  (Gen.dat1 (F := Ideal) V c).arrAt_eq_of_cover 4 _ (fun t _ => flushed_eq V c t) cover

end Cert.KernelIdeal.Combine

end
-- ==== Proof.RefRun.lean ====
/-
  The reference program's @main as one straight line of host operations, and its run.

  @main calls four module-local functions (the leaky rectifier twice, the rectifier once, a three-operand
  `where` once; the leaky rectifier itself calls a `where`). A call means its callee's body over the call's own
  buffers, so @main is the list of its own operations with each callee's operations written out at the call site:
  eighty-eight operations in all. Every weakly fair execution of that line terminates with each buffer at the fold
  of the operations' results over the launch contents.
-/
import proofs.«120390_j36816459661690_2_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- @main's operations in order, the calls written out: the leaky rectifier is seven operations (the zero and its
    broadcast, the comparison, the slope and its broadcast, the product, then the inner `where`'s select), the
    three-operand `where` three (the scalar converted to its own type, its broadcast, the select), the rectifier
    three (the zero, its broadcast, the maximum). -/
abbrev ops : List (HloOp τ sig (Elt F)) :=
  [ binary main_arg0 main_arg3 main_v0 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg4 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    binary main_v3 main_arg5 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg6 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v7) main_call0.v0 main_call0.v1 (cmpf .oge),
    TRef.nullary main_call0.cst_0 (constant S_ .f32 0x3C23D70A#32),
    TRef.unary main_call0.cst_0 main_call0.v2 (broadcastInDim S100000x64 ![] bcast_S_S100000x64),
    TRef.binary main_call0.v2 (.of main_v7) main_call0.v3 mulf,
    TRef.ternary main_call0.v1 (.of main_v7) main_call0.v3 main_call0.call0.v0 select,
    unary main_arg1 main_v9 ((extractStridedSlice S1x1200000 ![0, 0] · slices_S2x1200000_S1x1200000_0_0) : (⟨S2x1200000, .i32⟩ : BufTy).Contents (Elt F) → (⟨S1x1200000, .i32⟩ : BufTy).Contents (Elt F)),
    reshape main_v9 main_v10 rfl shapeCasts_S1x1200000_S1200000,
    unary main_arg1 main_v11 ((extractStridedSlice S1x1200000 ![1, 0] · slices_S2x1200000_S1x1200000_1_0) : (⟨S2x1200000, .i32⟩ : BufTy).Contents (Elt F) → (⟨S1x1200000, .i32⟩ : BufTy).Contents (Elt F)),
    reshape main_v11 main_v12 rfl shapeCasts_S1x1200000_S1200000,
    nullary main_cst (constant S_ .f32 0x00000000#32),
    unary main_cst main_v13 (broadcastInDim S100000 ![] bcast_S_S100000 : (⟨S_, .f32⟩ : BufTy).Contents (Elt F) → (⟨S100000, .f32⟩ : BufTy).Contents (Elt F)),
    unary main_v12 main_v14 (broadcastInDim S1200000x1 ![0] bcast_S1200000_S1200000x1_0 : (⟨S1200000, .i32⟩ : BufTy).Contents (Elt F) → (⟨S1200000x1, .i32⟩ : BufTy).Contents (Elt F)),
    ternary main_v13 main_v14 main_arg2 main_v15 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_0 (constant S_ .f32 0x00000000#32),
    unary main_cst_0 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x0DA24260#32),
    unary main_cst_1 main_v18 (broadcastInDim S100000 ![] bcast_S_S100000 : (⟨S_, .f32⟩ : BufTy).Contents (Elt F) → (⟨S100000, .f32⟩ : BufTy).Contents (Elt F)),
    binary main_v15 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (Host.rsqrt : (⟨S100000, .f32⟩ : BufTy).Contents (Elt F) → (⟨S100000, .f32⟩ : BufTy).Contents (Elt F)),
    nullary main_cst_2 (constant S_ .f32 0x00000000#32),
    TRef.unary (.of main_cst_2) main_call1.v0 id,
    TRef.unary main_call1.v0 main_call1.v1 (broadcastInDim S100000 ![] bcast_S_S100000),
    TRef.ternary (.of main_v17) (.of main_v20) main_call1.v1 main_call1.v2 select,
    nullary main_c (constantI S_ 32 0#32),
    unary main_c main_v22 (broadcastInDim S1200000 ![] bcast_S_S1200000 : (⟨S_, .i32⟩ : BufTy).Contents (Elt F) → (⟨S1200000, .i32⟩ : BufTy).Contents (Elt F)),
    binary main_v10 main_v22 main_v23 (cmpi .slt : (⟨S1200000, .i32⟩ : BufTy).Contents (Elt F) → (⟨S1200000, .i32⟩ : BufTy).Contents (Elt F) → (⟨S1200000, .i1⟩ : BufTy).Contents (Elt F)),
    nullary main_c_3 (constantI S_ 32 100000#32),
    unary main_c_3 main_v24 (broadcastInDim S1200000 ![] bcast_S_S1200000 : (⟨S_, .i32⟩ : BufTy).Contents (Elt F) → (⟨S1200000, .i32⟩ : BufTy).Contents (Elt F)),
    binary main_v10 main_v24 main_v25 (addi : (⟨S1200000, .i32⟩ : BufTy).Contents (Elt F) → (⟨S1200000, .i32⟩ : BufTy).Contents (Elt F) → (⟨S1200000, .i32⟩ : BufTy).Contents (Elt F)),
    ternary main_v23 main_v25 main_v10 main_v26 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v26 main_v27 (broadcastInDim S1200000x1 ![0] bcast_S1200000_S1200000x1_0 : (⟨S1200000, .i32⟩ : BufTy).Contents (Elt F) → (⟨S1200000x1, .i32⟩ : BufTy).Contents (Elt F)),
    binary main_v21 main_v27 main_v28 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v28 main_arg2 main_v29 (mulf : (⟨S1200000, .f32⟩ : BufTy).Contents (Elt F) → (⟨S1200000, .f32⟩ : BufTy).Contents (Elt F) → (⟨S1200000, .f32⟩ : BufTy).Contents (Elt F)),
    nullary main_c_4 (constantI S_ 32 0#32),
    unary main_c_4 main_v30 (broadcastInDim S1200000 ![] bcast_S_S1200000 : (⟨S_, .i32⟩ : BufTy).Contents (Elt F) → (⟨S1200000, .i32⟩ : BufTy).Contents (Elt F)),
    binary main_v12 main_v30 main_v31 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v32 (broadcastInDim S1200000 ![] bcast_S_S1200000 : (⟨S_, .i32⟩ : BufTy).Contents (Elt F) → (⟨S1200000, .i32⟩ : BufTy).Contents (Elt F)),
    binary main_v12 main_v32 main_v33 (addi : (⟨S1200000, .i32⟩ : BufTy).Contents (Elt F) → (⟨S1200000, .i32⟩ : BufTy).Contents (Elt F) → (⟨S1200000, .i32⟩ : BufTy).Contents (Elt F)),
    ternary main_v31 main_v33 main_v12 main_v34 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v34 main_v35 (broadcastInDim S1200000x1 ![0] bcast_S1200000_S1200000x1_0 : (⟨S1200000, .i32⟩ : BufTy).Contents (Elt F) → (⟨S1200000x1, .i32⟩ : BufTy).Contents (Elt F)),
    binary main_v21 main_v35 main_v36 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v29 main_v36 main_v37 (mulf : (⟨S1200000, .f32⟩ : BufTy).Contents (Elt F) → (⟨S1200000, .f32⟩ : BufTy).Contents (Elt F) → (⟨S1200000, .f32⟩ : BufTy).Contents (Elt F)),
    binary main_v8 main_arg7 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v37 main_v39 (broadcastInDim S1200000x1 ![0] bcast_S1200000_S1200000x1_0 : (⟨S1200000, .f32⟩ : BufTy).Contents (Elt F) → (⟨S1200000x1, .f32⟩ : BufTy).Contents (Elt F)),
    nullary main_c_6 (constantI S_ 32 0#32),
    unary main_c_6 main_v40 (broadcastInDim S1200000 ![] bcast_S_S1200000 : (⟨S_, .i32⟩ : BufTy).Contents (Elt F) → (⟨S1200000, .i32⟩ : BufTy).Contents (Elt F)),
    binary main_v10 main_v40 main_v41 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v42 (broadcastInDim S1200000 ![] bcast_S_S1200000 : (⟨S_, .i32⟩ : BufTy).Contents (Elt F) → (⟨S1200000, .i32⟩ : BufTy).Contents (Elt F)),
    binary main_v10 main_v42 main_v43 (addi : (⟨S1200000, .i32⟩ : BufTy).Contents (Elt F) → (⟨S1200000, .i32⟩ : BufTy).Contents (Elt F) → (⟨S1200000, .i32⟩ : BufTy).Contents (Elt F)),
    ternary main_v41 main_v43 main_v10 main_v44 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v44 main_v45 (broadcastInDim S1200000x1 ![0] bcast_S1200000_S1200000x1_0 : (⟨S1200000, .i32⟩ : BufTy).Contents (Elt F) → (⟨S1200000x1, .i32⟩ : BufTy).Contents (Elt F)),
    binary main_v38 main_v45 main_v46 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v39 main_v47 (broadcastInDim S1200000x64 ![0, 1] bcast_S1200000x1_S1200000x64_0_1 : (⟨S1200000x1, .f32⟩ : BufTy).Contents (Elt F) → (⟨S1200000x64, .f32⟩ : BufTy).Contents (Elt F)),
    binary main_v47 main_v46 main_v48 (mulf : (⟨S1200000x64, .f32⟩ : BufTy).Contents (Elt F) → (⟨S1200000x64, .f32⟩ : BufTy).Contents (Elt F) → (⟨S1200000x64, .f32⟩ : BufTy).Contents (Elt F)),
    nullary main_cst_8 (constant S_ .f32 0x00000000#32),
    unary main_cst_8 main_v49 (broadcastInDim S100000x64 ![] bcast_S_S100000x64 : (⟨S_, .f32⟩ : BufTy).Contents (Elt F) → (⟨S100000x64, .f32⟩ : BufTy).Contents (Elt F)),
    unary main_v12 main_v50 (broadcastInDim S1200000x1 ![0] bcast_S1200000_S1200000x1_0 : (⟨S1200000, .i32⟩ : BufTy).Contents (Elt F) → (⟨S1200000x1, .i32⟩ : BufTy).Contents (Elt F)),
    ternary main_v49 main_v50 main_v48 main_v51 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)),
    binary main_v8 main_arg8 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v51 main_v52 main_v53 (addf : (⟨S100000x64, .f32⟩ : BufTy).Contents (Elt F) → (⟨S100000x64, .f32⟩ : BufTy).Contents (Elt F) → (⟨S100000x64, .f32⟩ : BufTy).Contents (Elt F)),
    unary main_arg9 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v56) main_call2.v0 main_call2.v1 maximumf,
    TRef.nullary main_call3.cst (constant S_ .f32 0x00000000#32),
    TRef.unary main_call3.cst main_call3.v0 (broadcastInDim S100000x64 ![] bcast_S_S100000x64),
    TRef.binary (.of main_v57) main_call3.v0 main_call3.v1 (cmpf .oge),
    TRef.nullary main_call3.cst_0 (constant S_ .f32 0x3C23D70A#32),
    TRef.unary main_call3.cst_0 main_call3.v2 (broadcastInDim S100000x64 ![] bcast_S_S100000x64),
    TRef.binary main_call3.v2 (.of main_v57) main_call3.v3 mulf,
    TRef.ternary main_call3.v1 (.of main_v57) main_call3.v3 main_call3.call0.v0 select,
    binary main_v8 main_v58 main_v59 (addf : (⟨S100000x64, .f32⟩ : BufTy).Contents (Elt F) → (⟨S100000x64, .f32⟩ : BufTy).Contents (Elt F) → (⟨S100000x64, .f32⟩ : BufTy).Contents (Elt F)),
    unary main_v59 main_v60 (Host.tanh : (⟨S100000x64, .f32⟩ : BufTy).Contents (Elt F) → (⟨S100000x64, .f32⟩ : BufTy).Contents (Elt F)) ]

set_option maxRecDepth 4096 in
set_option maxHeartbeats 4000000 in
/-- @main is that straight line: the two windows of its statements and the functions' definitions unfolded at their
    calls, both sides are one chain of steps once sequencing is reassociated. -/
theorem main_eq (c : Dev nD) : main (F := F) c = seq ops := by
  simp only [main, main_part0, main_part1, fn_leaky_relu.body, fn_where.body, fn_where_0.body, fn_relu.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., reshape_bufs_sub .., unary_bufs_sub ..,
    reshape_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., binary_bufs_sub .., unary_bufs_sub ..⟩

/-- For any float values, from any memory with zero counters: every weakly fair execution of @main on the
    TensorCores terminates, and every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRunA.lean ====
/-
  One stretch of the reference's straight line. The two dense layers and the first leaky rectifier: the operations up to the hidden features.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 1 … 15 of the line. -/
abbrev opsA : List (HloOp τ sig (Elt F)) :=
  [ binary main_arg0 main_arg3 main_v0 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_arg4 main_v1 (broadcastInDim S1x256 ![1] bcast_S256_S1x256_1 : (⟨S256, .f32⟩ : BufTy).Contents (Elt F) → (⟨S1x256, .f32⟩ : BufTy).Contents (Elt F)),
    unary main_v1 main_v2 (broadcastInDim S100000x256 ![0, 1] bcast_S1x256_S100000x256_0_1 : (⟨S1x256, .f32⟩ : BufTy).Contents (Elt F) → (⟨S100000x256, .f32⟩ : BufTy).Contents (Elt F)),
    binary main_v0 main_v2 main_v3 (addf : (⟨S100000x256, .f32⟩ : BufTy).Contents (Elt F) → (⟨S100000x256, .f32⟩ : BufTy).Contents (Elt F) → (⟨S100000x256, .f32⟩ : BufTy).Contents (Elt F)),
    binary main_v3 main_arg5 main_v4 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    unary main_arg6 main_v5 (broadcastInDim S1x64 ![1] bcast_S64_S1x64_1 : (⟨S64, .f32⟩ : BufTy).Contents (Elt F) → (⟨S1x64, .f32⟩ : BufTy).Contents (Elt F)),
    unary main_v5 main_v6 (broadcastInDim S100000x64 ![0, 1] bcast_S1x64_S100000x64_0_1 : (⟨S1x64, .f32⟩ : BufTy).Contents (Elt F) → (⟨S100000x64, .f32⟩ : BufTy).Contents (Elt F)),
    binary main_v4 main_v6 main_v7 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v7) main_call0.v0 main_call0.v1 (cmpf .oge),
    TRef.nullary main_call0.cst_0 (constant S_ .f32 0x3C23D70A#32),
    TRef.unary main_call0.cst_0 main_call0.v2 (broadcastInDim S100000x64 ![] bcast_S_S100000x64),
    TRef.binary main_call0.v2 (.of main_v7) main_call0.v3 mulf,
    TRef.ternary main_call0.v1 (.of main_v7) main_call0.v3 main_call0.call0.v0 select ]

attribute [local irreducible] Host.scatterAdd Host.gather Ideal.matmul Host.rsqrt Host.tanh in
set_option maxRecDepth 8192 in
theorem hidden_eq (V : Valuation τ sig (Elt Ideal)) :
    after opsA V (main_v8 : DevRef τ sig)
      = Cert.Spec.hidden (V (main_arg0 : DevRef τ sig)) (V (main_arg3 : DevRef τ sig)) (broadcastInDim S1x256 ![1] bcast_S256_S1x256_1 (V (main_arg4 : DevRef τ sig)))
        (V (main_arg5 : DevRef τ sig)) (broadcastInDim S1x64 ![1] bcast_S64_S1x64_1 (V (main_arg6 : DevRef τ sig))) := by
  after_results_simp
  rfl

theorem keepA_main_arg0 (V : Valuation τ sig (Elt F)) :
    after opsA V (main_arg0 : DevRef τ sig) = V (main_arg0 : DevRef τ sig) := by
  after_results_simp

theorem keepA_main_arg1 (V : Valuation τ sig (Elt F)) :
    after opsA V (main_arg1 : DevRef τ sig) = V (main_arg1 : DevRef τ sig) := by
  after_results_simp

theorem keepA_main_arg2 (V : Valuation τ sig (Elt F)) :
    after opsA V (main_arg2 : DevRef τ sig) = V (main_arg2 : DevRef τ sig) := by
  after_results_simp

theorem keepA_main_arg3 (V : Valuation τ sig (Elt F)) :
    after opsA V (main_arg3 : DevRef τ sig) = V (main_arg3 : DevRef τ sig) := by
  after_results_simp

theorem keepA_main_arg4 (V : Valuation τ sig (Elt F)) :
    after opsA V (main_arg4 : DevRef τ sig) = V (main_arg4 : DevRef τ sig) := by
  after_results_simp

theorem keepA_main_arg5 (V : Valuation τ sig (Elt F)) :
    after opsA V (main_arg5 : DevRef τ sig) = V (main_arg5 : DevRef τ sig) := by
  after_results_simp

theorem keepA_main_arg6 (V : Valuation τ sig (Elt F)) :
    after opsA V (main_arg6 : DevRef τ sig) = V (main_arg6 : DevRef τ sig) := by
  after_results_simp

theorem keepA_main_arg7 (V : Valuation τ sig (Elt F)) :
    after opsA V (main_arg7 : DevRef τ sig) = V (main_arg7 : DevRef τ sig) := by
  after_results_simp

theorem keepA_main_arg8 (V : Valuation τ sig (Elt F)) :
    after opsA V (main_arg8 : DevRef τ sig) = V (main_arg8 : DevRef τ sig) := by
  after_results_simp

theorem keepA_main_arg9 (V : Valuation τ sig (Elt F)) :
    after opsA V (main_arg9 : DevRef τ sig) = V (main_arg9 : DevRef τ sig) := by
  after_results_simp

end Cert.ReferenceIdeal.RefRun

end
-- ==== Proof.RefRunB.lean ====
/-
  One stretch of the reference's straight line. The edge table's two rows, the weighted in-degree, its positivity test and the inverse square root of its floored value.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 16 … 31 of the line. -/
abbrev opsB : List (HloOp τ sig (Elt F)) :=
  [ unary main_arg1 main_v9 ((extractStridedSlice S1x1200000 ![0, 0] · slices_S2x1200000_S1x1200000_0_0) : (⟨S2x1200000, .i32⟩ : BufTy).Contents (Elt F) → (⟨S1x1200000, .i32⟩ : BufTy).Contents (Elt F)),
    reshape main_v9 main_v10 rfl shapeCasts_S1x1200000_S1200000,
    unary main_arg1 main_v11 ((extractStridedSlice S1x1200000 ![1, 0] · slices_S2x1200000_S1x1200000_1_0) : (⟨S2x1200000, .i32⟩ : BufTy).Contents (Elt F) → (⟨S1x1200000, .i32⟩ : BufTy).Contents (Elt F)),
    reshape main_v11 main_v12 rfl shapeCasts_S1x1200000_S1200000,
    nullary main_cst (constant S_ .f32 0x00000000#32),
    unary main_cst main_v13 (broadcastInDim S100000 ![] bcast_S_S100000 : (⟨S_, .f32⟩ : BufTy).Contents (Elt F) → (⟨S100000, .f32⟩ : BufTy).Contents (Elt F)),
    unary main_v12 main_v14 (broadcastInDim S1200000x1 ![0] bcast_S1200000_S1200000x1_0 : (⟨S1200000, .i32⟩ : BufTy).Contents (Elt F) → (⟨S1200000x1, .i32⟩ : BufTy).Contents (Elt F)),
    ternary main_v13 main_v14 main_arg2 main_v15 ((fun x i u => Host.scatterAdd scatter_S100000_S1200000x1_S1200000_n_0_0_1 x i u) : (⟨S100000, .f32⟩ : BufTy).Contents (Elt F) → (⟨S1200000x1, .i32⟩ : BufTy).Contents (Elt F) → (⟨S1200000, .f32⟩ : BufTy).Contents (Elt F) → (⟨S100000, .f32⟩ : BufTy).Contents (Elt F)),
    nullary main_cst_0 (constant S_ .f32 0x00000000#32),
    unary main_cst_0 main_v16 (broadcastInDim S100000 ![] bcast_S_S100000 : (⟨S_, .f32⟩ : BufTy).Contents (Elt F) → (⟨S100000, .f32⟩ : BufTy).Contents (Elt F)),
    binary main_v15 main_v16 main_v17 (cmpf .ogt : (⟨S100000, .f32⟩ : BufTy).Contents (Elt F) → (⟨S100000, .f32⟩ : BufTy).Contents (Elt F) → (⟨S100000, .i1⟩ : BufTy).Contents (Elt F)),
    nullary main_cst_1 (constant S_ .f32 0x0DA24260#32),
    unary main_cst_1 main_v18 (broadcastInDim S100000 ![] bcast_S_S100000 : (⟨S_, .f32⟩ : BufTy).Contents (Elt F) → (⟨S100000, .f32⟩ : BufTy).Contents (Elt F)),
    binary main_v15 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (Host.rsqrt : (⟨S100000, .f32⟩ : BufTy).Contents (Elt F) → (⟨S100000, .f32⟩ : BufTy).Contents (Elt F)),
    nullary main_cst_2 (constant S_ .f32 0x00000000#32) ]

attribute [local irreducible] Host.scatterAdd Host.gather Ideal.matmul Host.rsqrt Host.tanh in
set_option maxRecDepth 8192 in
theorem src_eq (V : Valuation τ sig (Elt Ideal)) :
    after opsB V (main_v10 : DevRef τ sig)
      = Cert.Spec.src (V (main_arg1 : DevRef τ sig)) := by
  after_results_simp
  rfl

attribute [local irreducible] Host.scatterAdd Host.gather Ideal.matmul Host.rsqrt Host.tanh in
set_option maxRecDepth 8192 in
theorem dst_eq (V : Valuation τ sig (Elt Ideal)) :
    after opsB V (main_v12 : DevRef τ sig)
      = Cert.Spec.dst (V (main_arg1 : DevRef τ sig)) := by
  after_results_simp
  rfl

attribute [local irreducible] Host.scatterAdd Host.gather Ideal.matmul Host.rsqrt Host.tanh in
set_option maxRecDepth 8192 in
theorem pos_eq (V : Valuation τ sig (Elt Ideal)) :
    after opsB V (main_v17 : DevRef τ sig)
      = (cmpf .ogt (Cert.Spec.deg (V (main_arg1 : DevRef τ sig)) (V (main_arg2 : DevRef τ sig))) (broadcastInDim S100000 ![] bcast_S_S100000 (constant (F := Ideal) S_ .f32 0x00000000#32)) : IVec S100000 1) := by
  after_results_simp
  rfl

attribute [local irreducible] Host.scatterAdd Host.gather Ideal.matmul Host.rsqrt Host.tanh in
set_option maxRecDepth 8192 in
theorem rs_eq (V : Valuation τ sig (Elt Ideal)) :
    after opsB V (main_v20 : DevRef τ sig)
      = (Host.rsqrt (maximumf (Cert.Spec.deg (V (main_arg1 : DevRef τ sig)) (V (main_arg2 : DevRef τ sig))) (broadcastInDim S100000 ![] bcast_S_S100000 (constant (F := Ideal) S_ .f32 0x0DA24260#32))) : FVec Ideal S100000 .f32) := by
  after_results_simp
  rfl

attribute [local irreducible] Host.scatterAdd Host.gather Ideal.matmul Host.rsqrt Host.tanh in
set_option maxRecDepth 8192 in
theorem zero_eq (V : Valuation τ sig (Elt Ideal)) :
    after opsB V (main_cst_2 : DevRef τ sig)
      = (constant (F := Ideal) S_ .f32 0x00000000#32 : FVec Ideal S_ .f32) := by
  after_results_simp

theorem keepB_main_arg0 (V : Valuation τ sig (Elt F)) :
    after opsB V (main_arg0 : DevRef τ sig) = V (main_arg0 : DevRef τ sig) := by
  after_results_simp

theorem keepB_main_arg1 (V : Valuation τ sig (Elt F)) :
    after opsB V (main_arg1 : DevRef τ sig) = V (main_arg1 : DevRef τ sig) := by
  after_results_simp

theorem keepB_main_arg2 (V : Valuation τ sig (Elt F)) :
    after opsB V (main_arg2 : DevRef τ sig) = V (main_arg2 : DevRef τ sig) := by
  after_results_simp

theorem keepB_main_arg3 (V : Valuation τ sig (Elt F)) :
    after opsB V (main_arg3 : DevRef τ sig) = V (main_arg3 : DevRef τ sig) := by
  after_results_simp

theorem keepB_main_arg4 (V : Valuation τ sig (Elt F)) :
    after opsB V (main_arg4 : DevRef τ sig) = V (main_arg4 : DevRef τ sig) := by
  after_results_simp

theorem keepB_main_arg5 (V : Valuation τ sig (Elt F)) :
    after opsB V (main_arg5 : DevRef τ sig) = V (main_arg5 : DevRef τ sig) := by
  after_results_simp

theorem keepB_main_arg6 (V : Valuation τ sig (Elt F)) :
    after opsB V (main_arg6 : DevRef τ sig) = V (main_arg6 : DevRef τ sig) := by
  after_results_simp

theorem keepB_main_arg7 (V : Valuation τ sig (Elt F)) :
    after opsB V (main_arg7 : DevRef τ sig) = V (main_arg7 : DevRef τ sig) := by
  after_results_simp

theorem keepB_main_arg8 (V : Valuation τ sig (Elt F)) :
    after opsB V (main_arg8 : DevRef τ sig) = V (main_arg8 : DevRef τ sig) := by
  after_results_simp

theorem keepB_main_arg9 (V : Valuation τ sig (Elt F)) :
    after opsB V (main_arg9 : DevRef τ sig) = V (main_arg9 : DevRef τ sig) := by
  after_results_simp

theorem keepB_main_v8 (V : Valuation τ sig (Elt F)) :
    after opsB V (main_v8 : DevRef τ sig) = V (main_v8 : DevRef τ sig) := by
  after_results_simp

end Cert.ReferenceIdeal.RefRun

end
-- ==== Proof.RefRunW.lean ====
/-
  One stretch of the reference's straight line. The three-operand `where`: the inverse square root where the degree is positive, else zero.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 32 … 34 of the line. -/
abbrev opsW : List (HloOp τ sig (Elt F)) :=
  [ TRef.unary (.of main_cst_2) main_call1.v0 id,
    TRef.unary main_call1.v0 main_call1.v1 (broadcastInDim S100000 ![] bcast_S_S100000),
    TRef.ternary (.of main_v17) (.of main_v20) main_call1.v1 main_call1.v2 select ]

attribute [local irreducible] Host.scatterAdd Host.gather Ideal.matmul Host.rsqrt Host.tanh in
set_option maxRecDepth 8192 in
theorem where_eq (V : Valuation τ sig (Elt Ideal)) :
    after opsW V (main_v21 : DevRef τ sig)
      = (select (V (main_v17 : DevRef τ sig)) (V (main_v20 : DevRef τ sig)) (broadcastInDim S100000 ![] bcast_S_S100000 (id (V (main_cst_2 : DevRef τ sig)))) : FVec Ideal S100000 .f32) := by
  after_results_simp
  rfl

theorem keepW_main_arg0 (V : Valuation τ sig (Elt F)) :
    after opsW V (main_arg0 : DevRef τ sig) = V (main_arg0 : DevRef τ sig) := by
  after_results_simp

theorem keepW_main_arg1 (V : Valuation τ sig (Elt F)) :
    after opsW V (main_arg1 : DevRef τ sig) = V (main_arg1 : DevRef τ sig) := by
  after_results_simp

theorem keepW_main_arg2 (V : Valuation τ sig (Elt F)) :
    after opsW V (main_arg2 : DevRef τ sig) = V (main_arg2 : DevRef τ sig) := by
  after_results_simp

theorem keepW_main_arg3 (V : Valuation τ sig (Elt F)) :
    after opsW V (main_arg3 : DevRef τ sig) = V (main_arg3 : DevRef τ sig) := by
  after_results_simp

theorem keepW_main_arg4 (V : Valuation τ sig (Elt F)) :
    after opsW V (main_arg4 : DevRef τ sig) = V (main_arg4 : DevRef τ sig) := by
  after_results_simp

theorem keepW_main_arg5 (V : Valuation τ sig (Elt F)) :
    after opsW V (main_arg5 : DevRef τ sig) = V (main_arg5 : DevRef τ sig) := by
  after_results_simp

theorem keepW_main_arg6 (V : Valuation τ sig (Elt F)) :
    after opsW V (main_arg6 : DevRef τ sig) = V (main_arg6 : DevRef τ sig) := by
  after_results_simp

theorem keepW_main_arg7 (V : Valuation τ sig (Elt F)) :
    after opsW V (main_arg7 : DevRef τ sig) = V (main_arg7 : DevRef τ sig) := by
  after_results_simp

theorem keepW_main_arg8 (V : Valuation τ sig (Elt F)) :
    after opsW V (main_arg8 : DevRef τ sig) = V (main_arg8 : DevRef τ sig) := by
  after_results_simp

theorem keepW_main_arg9 (V : Valuation τ sig (Elt F)) :
    after opsW V (main_arg9 : DevRef τ sig) = V (main_arg9 : DevRef τ sig) := by
  after_results_simp

theorem keepW_main_v8 (V : Valuation τ sig (Elt F)) :
    after opsW V (main_v8 : DevRef τ sig) = V (main_v8 : DevRef τ sig) := by
  after_results_simp

theorem keepW_main_v10 (V : Valuation τ sig (Elt F)) :
    after opsW V (main_v10 : DevRef τ sig) = V (main_v10 : DevRef τ sig) := by
  after_results_simp

theorem keepW_main_v12 (V : Valuation τ sig (Elt F)) :
    after opsW V (main_v12 : DevRef τ sig) = V (main_v12 : DevRef τ sig) := by
  after_results_simp

end Cert.ReferenceIdeal.RefRun

end
-- ==== Proof.RefRunC.lean ====
/-
  One stretch of the reference's straight line. The two wrapped index columns and the edges' symmetric normalisation.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 35 … 54 of the line. -/
abbrev opsC : List (HloOp τ sig (Elt F)) :=
  [ nullary main_c (constantI S_ 32 0#32),
    unary main_c main_v22 (broadcastInDim S1200000 ![] bcast_S_S1200000 : (⟨S_, .i32⟩ : BufTy).Contents (Elt F) → (⟨S1200000, .i32⟩ : BufTy).Contents (Elt F)),
    binary main_v10 main_v22 main_v23 (cmpi .slt : (⟨S1200000, .i32⟩ : BufTy).Contents (Elt F) → (⟨S1200000, .i32⟩ : BufTy).Contents (Elt F) → (⟨S1200000, .i1⟩ : BufTy).Contents (Elt F)),
    nullary main_c_3 (constantI S_ 32 100000#32),
    unary main_c_3 main_v24 (broadcastInDim S1200000 ![] bcast_S_S1200000 : (⟨S_, .i32⟩ : BufTy).Contents (Elt F) → (⟨S1200000, .i32⟩ : BufTy).Contents (Elt F)),
    binary main_v10 main_v24 main_v25 (addi : (⟨S1200000, .i32⟩ : BufTy).Contents (Elt F) → (⟨S1200000, .i32⟩ : BufTy).Contents (Elt F) → (⟨S1200000, .i32⟩ : BufTy).Contents (Elt F)),
    ternary main_v23 main_v25 main_v10 main_v26 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v26 main_v27 (broadcastInDim S1200000x1 ![0] bcast_S1200000_S1200000x1_0 : (⟨S1200000, .i32⟩ : BufTy).Contents (Elt F) → (⟨S1200000x1, .i32⟩ : BufTy).Contents (Elt F)),
    binary main_v21 main_v27 main_v28 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v28 main_arg2 main_v29 (mulf : (⟨S1200000, .f32⟩ : BufTy).Contents (Elt F) → (⟨S1200000, .f32⟩ : BufTy).Contents (Elt F) → (⟨S1200000, .f32⟩ : BufTy).Contents (Elt F)),
    nullary main_c_4 (constantI S_ 32 0#32),
    unary main_c_4 main_v30 (broadcastInDim S1200000 ![] bcast_S_S1200000 : (⟨S_, .i32⟩ : BufTy).Contents (Elt F) → (⟨S1200000, .i32⟩ : BufTy).Contents (Elt F)),
    binary main_v12 main_v30 main_v31 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 100000#32),
    unary main_c_5 main_v32 (broadcastInDim S1200000 ![] bcast_S_S1200000 : (⟨S_, .i32⟩ : BufTy).Contents (Elt F) → (⟨S1200000, .i32⟩ : BufTy).Contents (Elt F)),
    binary main_v12 main_v32 main_v33 (addi : (⟨S1200000, .i32⟩ : BufTy).Contents (Elt F) → (⟨S1200000, .i32⟩ : BufTy).Contents (Elt F) → (⟨S1200000, .i32⟩ : BufTy).Contents (Elt F)),
    ternary main_v31 main_v33 main_v12 main_v34 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v34 main_v35 (broadcastInDim S1200000x1 ![0] bcast_S1200000_S1200000x1_0 : (⟨S1200000, .i32⟩ : BufTy).Contents (Elt F) → (⟨S1200000x1, .i32⟩ : BufTy).Contents (Elt F)),
    binary main_v21 main_v35 main_v36 ((fun x i => Host.gather gather_S100000_S1200000x1_S1200000_n_0_n_n_0_1_1 x i) : (⟨S100000, .f32⟩ : BufTy).Contents (Elt F) → (⟨S1200000x1, .i32⟩ : BufTy).Contents (Elt F) → (⟨S1200000, .f32⟩ : BufTy).Contents (Elt F)),
    binary main_v29 main_v36 main_v37 (mulf : (⟨S1200000, .f32⟩ : BufTy).Contents (Elt F) → (⟨S1200000, .f32⟩ : BufTy).Contents (Elt F) → (⟨S1200000, .f32⟩ : BufTy).Contents (Elt F)) ]

attribute [local irreducible] Host.scatterAdd Host.gather Ideal.matmul Host.rsqrt Host.tanh in
set_option maxRecDepth 8192 in
theorem norm_eq (V : Valuation τ sig (Elt Ideal)) :
    after opsC V (main_v37 : DevRef τ sig)
      = (mulf (mulf (Host.gather gather_S100000_S1200000x1_S1200000_n_0_n_n_0_1_1 (V (main_v21 : DevRef τ sig)) (Cert.Spec.wrapCol (V (main_v10 : DevRef τ sig)))) (V (main_arg2 : DevRef τ sig)))
        (Host.gather gather_S100000_S1200000x1_S1200000_n_0_n_n_0_1_1 (V (main_v21 : DevRef τ sig)) (Cert.Spec.wrapCol (V (main_v12 : DevRef τ sig)))) : FVec Ideal S1200000 .f32) := by
  after_results_simp
  rfl

theorem keepC_main_arg0 (V : Valuation τ sig (Elt F)) :
    after opsC V (main_arg0 : DevRef τ sig) = V (main_arg0 : DevRef τ sig) := by
  after_results_simp

theorem keepC_main_arg1 (V : Valuation τ sig (Elt F)) :
    after opsC V (main_arg1 : DevRef τ sig) = V (main_arg1 : DevRef τ sig) := by
  after_results_simp

theorem keepC_main_arg2 (V : Valuation τ sig (Elt F)) :
    after opsC V (main_arg2 : DevRef τ sig) = V (main_arg2 : DevRef τ sig) := by
  after_results_simp

theorem keepC_main_arg3 (V : Valuation τ sig (Elt F)) :
    after opsC V (main_arg3 : DevRef τ sig) = V (main_arg3 : DevRef τ sig) := by
  after_results_simp

theorem keepC_main_arg4 (V : Valuation τ sig (Elt F)) :
    after opsC V (main_arg4 : DevRef τ sig) = V (main_arg4 : DevRef τ sig) := by
  after_results_simp

theorem keepC_main_arg5 (V : Valuation τ sig (Elt F)) :
    after opsC V (main_arg5 : DevRef τ sig) = V (main_arg5 : DevRef τ sig) := by
  after_results_simp

theorem keepC_main_arg6 (V : Valuation τ sig (Elt F)) :
    after opsC V (main_arg6 : DevRef τ sig) = V (main_arg6 : DevRef τ sig) := by
  after_results_simp

theorem keepC_main_arg7 (V : Valuation τ sig (Elt F)) :
    after opsC V (main_arg7 : DevRef τ sig) = V (main_arg7 : DevRef τ sig) := by
  after_results_simp

theorem keepC_main_arg8 (V : Valuation τ sig (Elt F)) :
    after opsC V (main_arg8 : DevRef τ sig) = V (main_arg8 : DevRef τ sig) := by
  after_results_simp

theorem keepC_main_arg9 (V : Valuation τ sig (Elt F)) :
    after opsC V (main_arg9 : DevRef τ sig) = V (main_arg9 : DevRef τ sig) := by
  after_results_simp

theorem keepC_main_v8 (V : Valuation τ sig (Elt F)) :
    after opsC V (main_v8 : DevRef τ sig) = V (main_v8 : DevRef τ sig) := by
  after_results_simp

theorem keepC_main_v10 (V : Valuation τ sig (Elt F)) :
    after opsC V (main_v10 : DevRef τ sig) = V (main_v10 : DevRef τ sig) := by
  after_results_simp

theorem keepC_main_v12 (V : Valuation τ sig (Elt F)) :
    after opsC V (main_v12 : DevRef τ sig) = V (main_v12 : DevRef τ sig) := by
  after_results_simp

end Cert.ReferenceIdeal.RefRun

end
-- ==== Proof.RefRunD.lean ====
/-
  One stretch of the reference's straight line. The message weights, their gather along the edges, the weighting and the scatter-add into the nodes.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 55 … 71 of the line. -/
abbrev opsD : List (HloOp τ sig (Elt F)) :=
  [ binary main_v8 main_arg7 main_v38 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v37 main_v39 (broadcastInDim S1200000x1 ![0] bcast_S1200000_S1200000x1_0 : (⟨S1200000, .f32⟩ : BufTy).Contents (Elt F) → (⟨S1200000x1, .f32⟩ : BufTy).Contents (Elt F)),
    nullary main_c_6 (constantI S_ 32 0#32),
    unary main_c_6 main_v40 (broadcastInDim S1200000 ![] bcast_S_S1200000 : (⟨S_, .i32⟩ : BufTy).Contents (Elt F) → (⟨S1200000, .i32⟩ : BufTy).Contents (Elt F)),
    binary main_v10 main_v40 main_v41 (cmpi .slt : (⟨S1200000, .i32⟩ : BufTy).Contents (Elt F) → (⟨S1200000, .i32⟩ : BufTy).Contents (Elt F) → (⟨S1200000, .i1⟩ : BufTy).Contents (Elt F)),
    nullary main_c_7 (constantI S_ 32 100000#32),
    unary main_c_7 main_v42 (broadcastInDim S1200000 ![] bcast_S_S1200000 : (⟨S_, .i32⟩ : BufTy).Contents (Elt F) → (⟨S1200000, .i32⟩ : BufTy).Contents (Elt F)),
    binary main_v10 main_v42 main_v43 (addi : (⟨S1200000, .i32⟩ : BufTy).Contents (Elt F) → (⟨S1200000, .i32⟩ : BufTy).Contents (Elt F) → (⟨S1200000, .i32⟩ : BufTy).Contents (Elt F)),
    ternary main_v41 main_v43 main_v10 main_v44 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v44 main_v45 (broadcastInDim S1200000x1 ![0] bcast_S1200000_S1200000x1_0 : (⟨S1200000, .i32⟩ : BufTy).Contents (Elt F) → (⟨S1200000x1, .i32⟩ : BufTy).Contents (Elt F)),
    binary main_v38 main_v45 main_v46 ((fun x i => Host.gather gather_S100000x64_S1200000x1_S1200000x64_1_0_n_n_0_1_164 x i) : (⟨S100000x64, .f32⟩ : BufTy).Contents (Elt F) → (⟨S1200000x1, .i32⟩ : BufTy).Contents (Elt F) → (⟨S1200000x64, .f32⟩ : BufTy).Contents (Elt F)),
    unary main_v39 main_v47 (broadcastInDim S1200000x64 ![0, 1] bcast_S1200000x1_S1200000x64_0_1 : (⟨S1200000x1, .f32⟩ : BufTy).Contents (Elt F) → (⟨S1200000x64, .f32⟩ : BufTy).Contents (Elt F)),
    binary main_v47 main_v46 main_v48 (mulf : (⟨S1200000x64, .f32⟩ : BufTy).Contents (Elt F) → (⟨S1200000x64, .f32⟩ : BufTy).Contents (Elt F) → (⟨S1200000x64, .f32⟩ : BufTy).Contents (Elt F)),
    nullary main_cst_8 (constant S_ .f32 0x00000000#32),
    unary main_cst_8 main_v49 (broadcastInDim S100000x64 ![] bcast_S_S100000x64 : (⟨S_, .f32⟩ : BufTy).Contents (Elt F) → (⟨S100000x64, .f32⟩ : BufTy).Contents (Elt F)),
    unary main_v12 main_v50 (broadcastInDim S1200000x1 ![0] bcast_S1200000_S1200000x1_0 : (⟨S1200000, .i32⟩ : BufTy).Contents (Elt F) → (⟨S1200000x1, .i32⟩ : BufTy).Contents (Elt F)),
    ternary main_v49 main_v50 main_v48 main_v51 ((fun x i u => Host.scatterAdd scatter_S100000x64_S1200000x1_S1200000x64_1_0_0_1 x i u) : (⟨S100000x64, .f32⟩ : BufTy).Contents (Elt F) → (⟨S1200000x1, .i32⟩ : BufTy).Contents (Elt F) → (⟨S1200000x64, .f32⟩ : BufTy).Contents (Elt F) → (⟨S100000x64, .f32⟩ : BufTy).Contents (Elt F)) ]

attribute [local irreducible] Host.scatterAdd Host.gather Ideal.matmul Host.rsqrt Host.tanh in
set_option maxRecDepth 8192 in
theorem agg_eq (V : Valuation τ sig (Elt Ideal)) :
    after opsD V (main_v51 : DevRef τ sig)
      = (Host.scatterAdd scatter_S100000x64_S1200000x1_S1200000x64_1_0_0_1
        (broadcastInDim S100000x64 ![] bcast_S_S100000x64 (constant (F := Ideal) S_ .f32 0x00000000#32)) (Cert.Spec.col (V (main_v12 : DevRef τ sig)))
        (mulf
          (broadcastInDim S1200000x64 ![0, 1] bcast_S1200000x1_S1200000x64_0_1
            (broadcastInDim S1200000x1 ![0] bcast_S1200000_S1200000x1_0 (V (main_v37 : DevRef τ sig))))
          (Host.gather gather_S100000x64_S1200000x1_S1200000x64_1_0_n_n_0_1_164 (Cert.Spec.proj (V (main_v8 : DevRef τ sig)) (V (main_arg7 : DevRef τ sig)))
            (Cert.Spec.wrapCol (V (main_v10 : DevRef τ sig))))) : FVec Ideal S100000x64 .f32) := by
  after_results_simp
  rfl

theorem keepD_main_arg0 (V : Valuation τ sig (Elt F)) :
    after opsD V (main_arg0 : DevRef τ sig) = V (main_arg0 : DevRef τ sig) := by
  after_results_simp

theorem keepD_main_arg1 (V : Valuation τ sig (Elt F)) :
    after opsD V (main_arg1 : DevRef τ sig) = V (main_arg1 : DevRef τ sig) := by
  after_results_simp

theorem keepD_main_arg2 (V : Valuation τ sig (Elt F)) :
    after opsD V (main_arg2 : DevRef τ sig) = V (main_arg2 : DevRef τ sig) := by
  after_results_simp

theorem keepD_main_arg3 (V : Valuation τ sig (Elt F)) :
    after opsD V (main_arg3 : DevRef τ sig) = V (main_arg3 : DevRef τ sig) := by
  after_results_simp

theorem keepD_main_arg4 (V : Valuation τ sig (Elt F)) :
    after opsD V (main_arg4 : DevRef τ sig) = V (main_arg4 : DevRef τ sig) := by
  after_results_simp

theorem keepD_main_arg5 (V : Valuation τ sig (Elt F)) :
    after opsD V (main_arg5 : DevRef τ sig) = V (main_arg5 : DevRef τ sig) := by
  after_results_simp

theorem keepD_main_arg6 (V : Valuation τ sig (Elt F)) :
    after opsD V (main_arg6 : DevRef τ sig) = V (main_arg6 : DevRef τ sig) := by
  after_results_simp

theorem keepD_main_arg7 (V : Valuation τ sig (Elt F)) :
    after opsD V (main_arg7 : DevRef τ sig) = V (main_arg7 : DevRef τ sig) := by
  after_results_simp

theorem keepD_main_arg8 (V : Valuation τ sig (Elt F)) :
    after opsD V (main_arg8 : DevRef τ sig) = V (main_arg8 : DevRef τ sig) := by
  after_results_simp

theorem keepD_main_arg9 (V : Valuation τ sig (Elt F)) :
    after opsD V (main_arg9 : DevRef τ sig) = V (main_arg9 : DevRef τ sig) := by
  after_results_simp

theorem keepD_main_v8 (V : Valuation τ sig (Elt F)) :
    after opsD V (main_v8 : DevRef τ sig) = V (main_v8 : DevRef τ sig) := by
  after_results_simp

end Cert.ReferenceIdeal.RefRun

end
-- ==== Proof.RefRunE.lean ====
/-
  One stretch of the reference's straight line. The root product, the bias, the rectifier, the second leaky rectifier, the sum with the hidden features and the tanh.
  The stretch's results as terms of the contents it starts from, and the buffers it leaves alone.
-/
import proofs.«120390_j36816459661690_2_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- Operations 72 … 88 of the line. -/
abbrev opsE : List (HloOp τ sig (Elt F)) :=
  [ binary main_v8 main_arg8 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    binary main_v51 main_v52 main_v53 (addf : (⟨S100000x64, .f32⟩ : BufTy).Contents (Elt F) → (⟨S100000x64, .f32⟩ : BufTy).Contents (Elt F) → (⟨S100000x64, .f32⟩ : BufTy).Contents (Elt F)),
    unary main_arg9 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)),
    TRef.nullary main_call2.cst (constant S_ .f32 0x00000000#32),
    TRef.unary main_call2.cst main_call2.v0 (broadcastInDim S100000x64 ![] bcast_S_S100000x64),
    TRef.binary (.of main_v56) main_call2.v0 main_call2.v1 maximumf,
    TRef.nullary main_call3.cst (constant S_ .f32 0x00000000#32),
    TRef.unary main_call3.cst main_call3.v0 (broadcastInDim S100000x64 ![] bcast_S_S100000x64),
    TRef.binary (.of main_v57) main_call3.v0 main_call3.v1 (cmpf .oge),
    TRef.nullary main_call3.cst_0 (constant S_ .f32 0x3C23D70A#32),
    TRef.unary main_call3.cst_0 main_call3.v2 (broadcastInDim S100000x64 ![] bcast_S_S100000x64),
    TRef.binary main_call3.v2 (.of main_v57) main_call3.v3 mulf,
    TRef.ternary main_call3.v1 (.of main_v57) main_call3.v3 main_call3.call0.v0 select,
    binary main_v8 main_v58 main_v59 (addf : (⟨S100000x64, .f32⟩ : BufTy).Contents (Elt F) → (⟨S100000x64, .f32⟩ : BufTy).Contents (Elt F) → (⟨S100000x64, .f32⟩ : BufTy).Contents (Elt F)),
    unary main_v59 main_v60 (Host.tanh : (⟨S100000x64, .f32⟩ : BufTy).Contents (Elt F) → (⟨S100000x64, .f32⟩ : BufTy).Contents (Elt F)) ]

attribute [local irreducible] Host.scatterAdd Host.gather Ideal.matmul Host.rsqrt Host.tanh in
set_option maxRecDepth 8192 in
theorem combine_eq (V : Valuation τ sig (Elt Ideal)) :
    after opsE V (main_v60 : DevRef τ sig)
      = Cert.Spec.combine (V (main_v8 : DevRef τ sig)) (V (main_v51 : DevRef τ sig)) (V (main_arg8 : DevRef τ sig)) (broadcastInDim S1x64 ![1] bcast_S64_S1x64_1 (V (main_arg9 : DevRef τ sig))) := by
  after_results_simp
  rfl

theorem keepE_main_arg0 (V : Valuation τ sig (Elt F)) :
    after opsE V (main_arg0 : DevRef τ sig) = V (main_arg0 : DevRef τ sig) := by
  after_results_simp

theorem keepE_main_arg1 (V : Valuation τ sig (Elt F)) :
    after opsE V (main_arg1 : DevRef τ sig) = V (main_arg1 : DevRef τ sig) := by
  after_results_simp

theorem keepE_main_arg2 (V : Valuation τ sig (Elt F)) :
    after opsE V (main_arg2 : DevRef τ sig) = V (main_arg2 : DevRef τ sig) := by
  after_results_simp

theorem keepE_main_arg3 (V : Valuation τ sig (Elt F)) :
    after opsE V (main_arg3 : DevRef τ sig) = V (main_arg3 : DevRef τ sig) := by
  after_results_simp

theorem keepE_main_arg4 (V : Valuation τ sig (Elt F)) :
    after opsE V (main_arg4 : DevRef τ sig) = V (main_arg4 : DevRef τ sig) := by
  after_results_simp

theorem keepE_main_arg5 (V : Valuation τ sig (Elt F)) :
    after opsE V (main_arg5 : DevRef τ sig) = V (main_arg5 : DevRef τ sig) := by
  after_results_simp

theorem keepE_main_arg6 (V : Valuation τ sig (Elt F)) :
    after opsE V (main_arg6 : DevRef τ sig) = V (main_arg6 : DevRef τ sig) := by
  after_results_simp

theorem keepE_main_arg7 (V : Valuation τ sig (Elt F)) :
    after opsE V (main_arg7 : DevRef τ sig) = V (main_arg7 : DevRef τ sig) := by
  after_results_simp

theorem keepE_main_arg8 (V : Valuation τ sig (Elt F)) :
    after opsE V (main_arg8 : DevRef τ sig) = V (main_arg8 : DevRef τ sig) := by
  after_results_simp

theorem keepE_main_arg9 (V : Valuation τ sig (Elt F)) :
    after opsE V (main_arg9 : DevRef τ sig) = V (main_arg9 : DevRef τ sig) := by
  after_results_simp

end Cert.ReferenceIdeal.RefRun

end
-- ==== Proof.RefRunOut.lean ====
/-
  The reference's result as the specification's function of the ten arguments.

  The straight line is cut into six stretches (the hidden features; the edge rows, the degree, its positivity test and
  the inverse square root; the `where` between them; the edges' normalisation; the graph step; the last layer). The
  fold over the whole line is the folds over the stretches composed, each stretch's results are the specification's
  pieces of the contents it starts from, and a buffer a stretch does not write keeps its contents: composed, the last
  buffer holds the specification's `out` of the launch contents of the arguments, and the arguments are unchanged.
-/
import proofs.«120390_j36816459661690_2_alg».proof.Proof.RefRun
import proofs.«120390_j36816459661690_2_alg».proof.Proof.RefRunA
import proofs.«120390_j36816459661690_2_alg».proof.Proof.RefRunB
import proofs.«120390_j36816459661690_2_alg».proof.Proof.RefRunW
import proofs.«120390_j36816459661690_2_alg».proof.Proof.RefRunC
import proofs.«120390_j36816459661690_2_alg».proof.Proof.RefRunD
import proofs.«120390_j36816459661690_2_alg».proof.Proof.RefRunE

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The fold over two lines run one after the other is the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The line is its six stretches in order. -/
theorem ops_eq : (ops : List (HloOp τ sig (Elt F))) = opsA ++ (opsB ++ (opsW ++ (opsC ++ (opsD ++ opsE)))) := rfl

theorem after_ops (V : Valuation τ sig (Elt F)) :
    after ops V = after opsE (after opsD (after opsC (after opsW (after opsB (after opsA V))))) := by
  rw [ops_eq, after_append, after_append, after_append, after_append, after_append]

/-- After the degree stretch and the `where`: the inverse square root of the degree where it is positive, else zero. -/
theorem dis_eq (V : Valuation τ sig (Elt Ideal)) :
    after opsW (after opsB V) (main_v21 : DevRef τ sig) = Cert.Spec.dis (V (main_arg1 : DevRef τ sig)) (V (main_arg2 : DevRef τ sig)) := by
  rw [where_eq, pos_eq, rs_eq, zero_eq]
  rfl

attribute [local irreducible] Host.scatterAdd Host.gather Ideal.matmul Host.rsqrt Host.tanh in
/-- The last buffer after the whole line: the specification's function of the arguments' contents. -/
theorem out_eq (V : Valuation τ sig (Elt Ideal)) :
    after ops V (main_v60 : DevRef τ sig)
      = Cert.Spec.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [after_ops, combine_eq, agg_eq, keepD_main_v8, keepD_main_arg8, keepD_main_arg9,
    norm_eq, keepC_main_v8, keepC_main_v10, keepC_main_v12, keepC_main_arg7, keepC_main_arg8, keepC_main_arg9,
    dis_eq, keepW_main_v8, keepW_main_v10, keepW_main_v12, keepW_main_arg2, keepW_main_arg7, keepW_main_arg8, keepW_main_arg9,
    src_eq, dst_eq, keepB_main_v8, keepB_main_arg2, keepB_main_arg7, keepB_main_arg8, keepB_main_arg9,
    hidden_eq, keepA_main_arg1, keepA_main_arg2, keepA_main_arg7, keepA_main_arg8, keepA_main_arg9]
  rfl

theorem arg0_eq (V : Valuation τ sig (Elt F)) :
    after ops V (main_arg0 : DevRef τ sig) = V (main_arg0 : DevRef τ sig) := by
  rw [after_ops, keepE_main_arg0, keepD_main_arg0, keepC_main_arg0, keepW_main_arg0, keepB_main_arg0, keepA_main_arg0]

theorem arg1_eq (V : Valuation τ sig (Elt F)) :
    after ops V (main_arg1 : DevRef τ sig) = V (main_arg1 : DevRef τ sig) := by
  rw [after_ops, keepE_main_arg1, keepD_main_arg1, keepC_main_arg1, keepW_main_arg1, keepB_main_arg1, keepA_main_arg1]

theorem arg2_eq (V : Valuation τ sig (Elt F)) :
    after ops V (main_arg2 : DevRef τ sig) = V (main_arg2 : DevRef τ sig) := by
  rw [after_ops, keepE_main_arg2, keepD_main_arg2, keepC_main_arg2, keepW_main_arg2, keepB_main_arg2, keepA_main_arg2]

theorem arg3_eq (V : Valuation τ sig (Elt F)) :
    after ops V (main_arg3 : DevRef τ sig) = V (main_arg3 : DevRef τ sig) := by
  rw [after_ops, keepE_main_arg3, keepD_main_arg3, keepC_main_arg3, keepW_main_arg3, keepB_main_arg3, keepA_main_arg3]

theorem arg4_eq (V : Valuation τ sig (Elt F)) :
    after ops V (main_arg4 : DevRef τ sig) = V (main_arg4 : DevRef τ sig) := by
  rw [after_ops, keepE_main_arg4, keepD_main_arg4, keepC_main_arg4, keepW_main_arg4, keepB_main_arg4, keepA_main_arg4]

theorem arg5_eq (V : Valuation τ sig (Elt F)) :
    after ops V (main_arg5 : DevRef τ sig) = V (main_arg5 : DevRef τ sig) := by
  rw [after_ops, keepE_main_arg5, keepD_main_arg5, keepC_main_arg5, keepW_main_arg5, keepB_main_arg5, keepA_main_arg5]

theorem arg6_eq (V : Valuation τ sig (Elt F)) :
    after ops V (main_arg6 : DevRef τ sig) = V (main_arg6 : DevRef τ sig) := by
  rw [after_ops, keepE_main_arg6, keepD_main_arg6, keepC_main_arg6, keepW_main_arg6, keepB_main_arg6, keepA_main_arg6]

theorem arg7_eq (V : Valuation τ sig (Elt F)) :
    after ops V (main_arg7 : DevRef τ sig) = V (main_arg7 : DevRef τ sig) := by
  rw [after_ops, keepE_main_arg7, keepD_main_arg7, keepC_main_arg7, keepW_main_arg7, keepB_main_arg7, keepA_main_arg7]

theorem arg8_eq (V : Valuation τ sig (Elt F)) :
    after ops V (main_arg8 : DevRef τ sig) = V (main_arg8 : DevRef τ sig) := by
  rw [after_ops, keepE_main_arg8, keepD_main_arg8, keepC_main_arg8, keepW_main_arg8, keepB_main_arg8, keepA_main_arg8]

theorem arg9_eq (V : Valuation τ sig (Elt F)) :
    after ops V (main_arg9 : DevRef τ sig) = V (main_arg9 : DevRef τ sig) := by
  rw [after_ops, keepE_main_arg9, keepD_main_arg9, keepC_main_arg9, keepW_main_arg9, keepB_main_arg9, keepA_main_arg9]

end Cert.ReferenceIdeal.RefRun

end
-- ==== Proof.lean ====
/-
  An ARMA graph-convolution block, N = 100000 nodes and E = 1200000 weighted edges:
    hidden = lrelu((x·W_pre + b_pre)·W_lin + b_lin),   messages = hidden·W_init,
    agg    = for each node, the sum over its incoming edges of dis[src]·w·dis[dst] times the source's message row
             (dis = deg^(-1/2) where the weighted in-degree deg is positive, else 0),
    out    = tanh(hidden + lrelu(max(agg + hidden·W_root + b_arma, 0))).
  The kernel program computes hidden and the messages in a first kernel over twenty blocks of 5000 rows, runs the graph
  step on the host, and computes out in a second kernel over the same blocks; the reference computes everything on the
  host. At the ideal values (floats extended reals, every operation exact, a change of format the identity) both end
  with the same array: a block of rows of a matrix product is the product of the block of rows, the pointwise
  operations and the bias rows commute with taking a block of rows, the twenty blocks cover the array, and the graph
  step is the same chain of operations on both sides. No algebraic law beyond that is used, and finiteness of the
  inputs is never needed.
  The three frame claims are the programs' runs with their results dropped; the idealization rewrote nothing, so
  `preserves` is trivial.
-/
import proofs.«120390_j36816459661690_2_alg».proof.Defs
import proofs.«120390_j36816459661690_2_alg».proof.Proof.Gen.Kernel
import proofs.«120390_j36816459661690_2_alg».proof.Proof.Gen.Kernel.Skeleton
import proofs.«120390_j36816459661690_2_alg».proof.Proof.Gen.Kernel.Launch
import proofs.«120390_j36816459661690_2_alg».proof.Proof.Gen.Kernel.Points
import proofs.«120390_j36816459661690_2_alg».proof.Proof.Gen.Kernel.Frame
import proofs.«120390_j36816459661690_2_alg».proof.Proof.Gen.KernelIdeal
import proofs.«120390_j36816459661690_2_alg».proof.Proof.Gen.KernelIdeal.Skeleton
import proofs.«120390_j36816459661690_2_alg».proof.Proof.Gen.KernelIdeal.Launch
import proofs.«120390_j36816459661690_2_alg».proof.Proof.Gen.KernelIdeal.Points
import proofs.«120390_j36816459661690_2_alg».proof.Proof.Gen.KernelIdeal.Frame
import proofs.«120390_j36816459661690_2_alg».proof.Proof.Gen.ReferenceIdeal
import proofs.«120390_j36816459661690_2_alg».proof.Proof.Gen.Pre_finite_inputs
import proofs.«120390_j36816459661690_2_alg».proof.Proof.KernelRun
import proofs.«120390_j36816459661690_2_alg».proof.Proof.KernelValue
import proofs.«120390_j36816459661690_2_alg».proof.Proof.DenseArr
import proofs.«120390_j36816459661690_2_alg».proof.Proof.Combine
import proofs.«120390_j36816459661690_2_alg».proof.Proof.RefRunOut
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is a straight line of host operations, none of which writes an argument. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _)⟩)
    (Cert.ReferenceIdeal.RefRun.run_main m ρ)

/-- The ideal pass rewrote no operation. -/
theorem preserves : Cert.preserves_Kernel_KernelIdeal := trivial

/-- Both idealized programs end with the specification's function of the ten arguments. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.Whole.result_out m ρ c Cert.KernelIdeal.Dense.hidden_arr
          Cert.KernelIdeal.Dense.proj_arr Cert.KernelIdeal.Combine.out_arr), (h c).2⟩)
      (Cert.KernelIdeal.Run.run_named m ρ)
  · refine (θ_run Cert.ReferenceIdeal.defs _ _).mono (fun r h c => ⟨?_,
      (h c Cert.ReferenceIdeal.main_arg0).trans (Cert.ReferenceIdeal.RefRun.arg0_eq _),
      (h c Cert.ReferenceIdeal.main_arg1).trans (Cert.ReferenceIdeal.RefRun.arg1_eq _),
      (h c Cert.ReferenceIdeal.main_arg2).trans (Cert.ReferenceIdeal.RefRun.arg2_eq _),
      (h c Cert.ReferenceIdeal.main_arg3).trans (Cert.ReferenceIdeal.RefRun.arg3_eq _),
      (h c Cert.ReferenceIdeal.main_arg4).trans (Cert.ReferenceIdeal.RefRun.arg4_eq _),
      (h c Cert.ReferenceIdeal.main_arg5).trans (Cert.ReferenceIdeal.RefRun.arg5_eq _),
      (h c Cert.ReferenceIdeal.main_arg6).trans (Cert.ReferenceIdeal.RefRun.arg6_eq _),
      (h c Cert.ReferenceIdeal.main_arg7).trans (Cert.ReferenceIdeal.RefRun.arg7_eq _),
      (h c Cert.ReferenceIdeal.main_arg8).trans (Cert.ReferenceIdeal.RefRun.arg8_eq _),
      (h c Cert.ReferenceIdeal.main_arg9).trans (Cert.ReferenceIdeal.RefRun.arg9_eq _)⟩)
      (Cert.ReferenceIdeal.RefRun.run_main m' ρ')
    refine (h c Cert.ReferenceIdeal.main_v60).trans ((Cert.ReferenceIdeal.RefRun.out_eq _).trans ?_)
    show Cert.Spec.out
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9)) = _
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
